-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S4x1024x1024 : Shape := ⟨3, ![4, 1024, 1024]⟩
abbrev S4x1024 : Shape := ⟨2, ![4, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S1024x1024 .f32) (main_arg6 : FVec F S1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S4x1024x1024 .f32) (main_arg4 : FVec F S4x1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S4x1024x1024 : Shape := ⟨3, ![4, 1024, 1024]⟩
abbrev S4x1024 : Shape := ⟨2, ![4, 1024]⟩
abbrev S16384x1024 : Shape := ⟨2, ![16384, 1024]⟩
abbrev S1x1024 : Shape := ⟨2, ![1, 1024]⟩
abbrev S4x1x1024 : Shape := ⟨3, ![4, 1, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1x1x1024 : Shape := ⟨3, ![1, 1, 1024]⟩

abbrev nBuf : Space → Nat
  | .hbm => 16
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S4x1024x1024, .f32⟩
  | .hbm, ⟨4, _⟩ => ⟨S4x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S1024x1024, .bf16⟩
  | .hbm, ⟨9, _⟩ => ⟨S4x1024x1024, .bf16⟩
  | .hbm, ⟨10, _⟩ => ⟨S1024x1024, .bf16⟩
  | .hbm, ⟨11, _⟩ => ⟨S1x1024, .f32⟩
  | .hbm, ⟨12, _⟩ => ⟨S4x1x1024, .f32⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S4x1024x1024, .bf16⟩
  | .local _ .vmem, ⟨5, _⟩ => ⟨S4x1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x1024_S16384x1024 : S4x4096x1024.ShapeCasts S16384x1024
  bitsLt_bf16_f32 : FTy.bits .bf16 < FTy.bits .f32
  shapeCasts_S1024_S1x1024 : S1024.ShapeCasts S1x1024
  shapeCasts_S4x1024_S4x1x1024 : S4x1024.ShapeCasts S4x1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1x1024_S1x1x1024_0_0_0 : ∀ a, (![0, 0, 0] : Fin 3 → Nat) a + S1x1x1024.size a ≤ S4x1x1024.size a
  h_S1x1x1024 : 0 < S1x1x1024.numel
  shapeCasts_S1x1x1024_S1x1024 : S1x1x1024.ShapeCasts S1x1024
  inb_S4x1024x1024_S1x1024x1024_1_0_0 : ∀ a, (![1, 0, 0] : Fin 3 → Nat) a + S1x1024x1024.size a ≤ S4x1024x1024.size a
  inb_S4x1x1024_S1x1x1024_1_0_0 : ∀ a, (![1, 0, 0] : Fin 3 → Nat) a + S1x1x1024.size a ≤ S4x1x1024.size a
  inb_S4x1024x1024_S1x1024x1024_2_0_0 : ∀ a, (![2, 0, 0] : Fin 3 → Nat) a + S1x1024x1024.size a ≤ S4x1024x1024.size a
  inb_S4x1x1024_S1x1x1024_2_0_0 : ∀ a, (![2, 0, 0] : Fin 3 → Nat) a + S1x1x1024.size a ≤ S4x1x1024.size a
  inb_S4x1024x1024_S1x1024x1024_3_0_0 : ∀ a, (![3, 0, 0] : Fin 3 → Nat) a + S1x1024x1024.size a ≤ S4x1024x1024.size a
  inb_S4x1x1024_S1x1x1024_3_0_0 : ∀ a, (![3, 0, 0] : Fin 3 → Nat) a + S1x1x1024.size a ≤ S4x1x1024.size a
  shapeCasts_S16384x1024_S4x4096x1024 : S16384x1024.ShapeCasts S4x4096x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1x1024.size a ≤ S4x1x1024.size a
  hwx0_4 : ∀ i : grid0.Coords, EltTy.bits .f32 = 32 ∨ (Rect.block (s := S4x1x1024) S4x1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S4x1024x1024 : Shape := ⟨3, ![4, 1024, 1024]⟩
abbrev S4x1024 : Shape := ⟨2, ![4, 1024]⟩
abbrev S1x1x1024 : Shape := ⟨3, ![1, 1, 1024]⟩
abbrev S_ : Shape := ⟨0, ![]⟩
abbrev S4x4096 : Shape := ⟨2, ![4, 4096]⟩
abbrev S4x4096x1 : Shape := ⟨3, ![4, 4096, 1]⟩
abbrev S1x1024x1024 : Shape := ⟨3, ![1, 1024, 1024]⟩
abbrev S1x1024 : Shape := ⟨2, ![1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S4x1024x1024, .f32⟩
  | .hbm, ⟨4, _⟩ => ⟨S4x1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .i32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1024x1024, .f32⟩
  | .hbm, ⟨50, _⟩ => ⟨S1024x1024, .f32⟩
  | .hbm, ⟨51, _⟩ => ⟨S4x4096x1024, .f32⟩
  | .hbm, ⟨52, _⟩ => ⟨S1x1024, .f32⟩
  | .hbm, ⟨53, _⟩ => ⟨S1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096x1024, .f32⟩
  | .hbm, ⟨61, _⟩ => ⟨S4x4096x1024, .f32⟩
  | .hbm, ⟨62, _⟩ => ⟨S_, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S1x1024x1024, .f32⟩
  | .hbm, ⟨67, _⟩ => ⟨S1024x1024, .f32⟩
  | .hbm, ⟨68, _⟩ => ⟨S4x4096x1024, .f32⟩
  | .hbm, ⟨69, _⟩ => ⟨S1x1024, .f32⟩
  | .hbm, ⟨70, _⟩ => ⟨S1024, .f32⟩
  | .hbm, ⟨71, _⟩ => ⟨S1x1x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S1x1024x1024, .f32⟩
  | .hbm, ⟨84, _⟩ => ⟨S1024x1024, .f32⟩
  | .hbm, ⟨85, _⟩ => ⟨S4x4096x1024, .f32⟩
  | .hbm, ⟨86, _⟩ => ⟨S1x1024, .f32⟩
  | .hbm, ⟨87, _⟩ => ⟨S1024, .f32⟩
  | .hbm, ⟨88, _⟩ => ⟨S1x1x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S4x4096x1024, .f32⟩
  | .hbm, ⟨93, _⟩ => ⟨S_, .f32⟩
  | .hbm, ⟨94, _⟩ => ⟨S4x4096x1024, .f32⟩
  | .hbm, ⟨95, _⟩ => ⟨S4x4096x1024, .f32⟩
  | .hbm, ⟨96, _⟩ => ⟨S_, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S1x1024x1024, .f32⟩
  | .hbm, ⟨101, _⟩ => ⟨S1024x1024, .f32⟩
  | .hbm, ⟨102, _⟩ => ⟨S4x4096x1024, .f32⟩
  | .hbm, ⟨103, _⟩ => ⟨S1x1024, .f32⟩
  | .hbm, ⟨104, _⟩ => ⟨S1024, .f32⟩
  | .hbm, ⟨105, _⟩ => ⟨S1x1x1024, .f32⟩
  | .hbm, ⟨106, _⟩ => ⟨S4x4096x1024, .f32⟩
  | .hbm, ⟨107, _⟩ => ⟨S4x4096x1024, .f32⟩
  | .hbm, ⟨108, _⟩ => ⟨S4x4096x1024, .f32⟩
  | .hbm, ⟨109, _⟩ => ⟨S4x4096x1024, .f32⟩
  | .hbm, ⟨110, _⟩ => ⟨S4x4096x1024, .f32⟩
  | .hbm, ⟨111, _⟩ => ⟨S1x1x1024, .f32⟩
  | .hbm, ⟨112, _⟩ => ⟨S4x4096x1024, .f32⟩
  | .hbm, ⟨113, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_cst_3 : Ref sig .tc := ⟨.hbm, 35, rfl⟩
abbrev main_call0_v13 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  slices_S4x1024x1024_S1x1024x1024_0_0_0 : S4x1024x1024.Slices ![0, 0, 0] S1x1024x1024
  shapeCasts_S1x1024x1024_S1024x1024 : S1x1024x1024.ShapeCasts S1024x1024
  slices_S4x1024_S1x1024_0_0 : S4x1024.Slices ![0, 0] S1x1024
  shapeCasts_S1x1024_S1024 : S1x1024.ShapeCasts S1024
  bcast_S_S4x4096x1024 : S_.BroadcastsInDim S4x4096x1024 (![] : Fin 0 → Fin S4x4096x1024.rank)
  slices_S4x1024x1024_S1x1024x1024_1_0_0 : S4x1024x1024.Slices ![1, 0, 0] S1x1024x1024
  slices_S4x1024_S1x1024_1_0 : S4x1024.Slices ![1, 0] S1x1024
  slices_S4x1024x1024_S1x1024x1024_2_0_0 : S4x1024x1024.Slices ![2, 0, 0] S1x1024x1024
  slices_S4x1024_S1x1024_2_0 : S4x1024.Slices ![2, 0] S1x1024
  slices_S4x1024x1024_S1x1024x1024_3_0_0 : S4x1024x1024.Slices ![3, 0, 0] S1x1024x1024
  slices_S4x1024_S1x1024_3_0 : S4x1024.Slices ![3, 0] S1x1024
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.LibRowNet.lean ====
/-
  The function both programs compute, one row at a time.

  Every output row depends on ONE input row `v` (1024 numbers) and on the weight tables:
    q   = v · Wq + bq                                   (a dense layer)
    qn  = the row q normalised: mean subtracted, scaled by rsqrt (variance + e)
    h   = three dense layers each followed by x ↦ x · logistic x, then a fourth dense layer, on qn
    out = h · Wo + bo.
  The two programs differ in how the variance is spelt. One computes it in ONE pass,
  max (Σ q² / c − (Σ q / c)², 0); the other in TWO passes, Σ (q − mean)² / c, and also adds
  qn − qn to h before the last layer. `netOnePass` and `netTwoPass` are those two spellings on the
  extended reals; that they agree on rows of real numbers when c is the row length is proved in
  LibRowNetLaw.lean. Here: the definitions only, over any sizes, and the vocabulary that reads rows and
  tables out of arrays indexed by literal shapes. (Imports PureOps.Ideal and Lib.ValueIdx only.)
-/
import Idealize.ShloMosaic.PureOps.Ideal
import Idealize.ShloMosaic.Lib.ValueIdx

noncomputable section

open scoped BigOperators

namespace Cert.RowNet

open Idealize.ShloMosaic Idealize.ShloMosaic.ValueIdx

/-- A dense layer on one row: entry j is Σ_k v k · W k j, plus the bias b j. -/
def dense {K N : ℕ} (W : Fin K → Fin N → EReal) (b : Fin N → EReal) (v : Fin K → EReal) : Fin N → EReal :=
  fun j => (∑ k : Fin K, v k * W k j) + b j

/-- x ↦ x · logistic x, with logistic x = 1 / (1 + e^(−x)). -/
def silu (x : EReal) : EReal := x * Ideal.logistic x

/-- The row's sum divided by c. -/
def mean {N : ℕ} (c : EReal) (v : Fin N → EReal) : EReal := Ideal.div (∑ j : Fin N, v j) c

/-- Normalisation with the variance in one pass: max (Σ v² / c − mean², 0). -/
def normOnePass {N : ℕ} (c e : EReal) (v : Fin N → EReal) : Fin N → EReal :=
  fun j => (v j - mean c v) * Ideal.rsqrt (max (Ideal.div (∑ i : Fin N, v i * v i) c - mean c v * mean c v) 0 + e)

/-- Normalisation with the variance in two passes: Σ (v − mean)² / c. -/
def normTwoPass {N : ℕ} (c e : EReal) (v : Fin N → EReal) : Fin N → EReal :=
  fun j => (v j - mean c v) * Ideal.rsqrt (Ideal.div (∑ i : Fin N, (v i - mean c v) * (v i - mean c v)) c + e)

/-- Four dense layers over the tables Wm 0 … Wm 3, the first three followed by `silu`. -/
def mlp {D : ℕ} (Wm : Fin 4 → Fin D → Fin D → EReal) (bm : Fin 4 → Fin D → EReal) (u : Fin D → EReal) : Fin D → EReal :=
  dense (Wm 3) (bm 3) fun j₃ => silu (dense (Wm 2) (bm 2) (fun j₂ => silu (dense (Wm 1) (bm 1)
    (fun j₁ => silu (dense (Wm 0) (bm 0) u j₁)) j₂)) j₃)

/-- The row network with the one-pass variance. -/
def netOnePass {K D : ℕ} (c e : EReal) (Wq : Fin K → Fin D → EReal) (bq : Fin D → EReal)
    (Wm : Fin 4 → Fin D → Fin D → EReal) (bm : Fin 4 → Fin D → EReal) (Wo : Fin D → Fin D → EReal) (bo : Fin D → EReal)
    (v : Fin K → EReal) : Fin D → EReal :=
  dense Wo bo (mlp Wm bm (normOnePass c e (dense Wq bq v)))

/-- The row network with the two-pass variance and the term qn − qn added before the last layer. -/
def netTwoPass {K D : ℕ} (c e : EReal) (Wq : Fin K → Fin D → EReal) (bq : Fin D → EReal)
    (Wm : Fin 4 → Fin D → Fin D → EReal) (bm : Fin 4 → Fin D → EReal) (Wo : Fin D → Fin D → EReal) (bo : Fin D → EReal)
    (v : Fin K → EReal) : Fin D → EReal :=
  dense Wo bo fun j => mlp Wm bm (normTwoPass c e (dense Wq bq v)) j
    + (normTwoPass c e (dense Wq bq v) j - normTwoPass c e (dense Wq bq v) j)

/-! ## Rows and tables read out of arrays -/

/-- Row (i, j) of an array [a, b, k]. -/
def row3 {a b k : ℕ} (x : (⟨3, ![a, b, k]⟩ : Shape).Idx → EReal) (i : Fin a) (j : Fin b) : Fin k → EReal :=
  fun q => x (ix3 i j q)

/-- Row i of a matrix [a, k]. -/
def row2 {a k : ℕ} (x : (⟨2, ![a, k]⟩ : Shape).Idx → EReal) (i : Fin a) : Fin k → EReal := fun q => x (ix2 i q)

/-- A matrix [a, b] as a table. -/
def mat2 {a b : ℕ} (w : (⟨2, ![a, b]⟩ : Shape).Idx → EReal) : Fin a → Fin b → EReal := fun i j => w (ix2 i j)

/-- A vector [n] as a row. -/
def vec1 {n : ℕ} (u : (⟨1, ![n]⟩ : Shape).Idx → EReal) : Fin n → EReal := fun j => u (ix1 j)

/-- A stack [l, a, b] as l tables. -/
def mat3 {l a b : ℕ} (w : (⟨3, ![l, a, b]⟩ : Shape).Idx → EReal) : Fin l → Fin a → Fin b → EReal :=
  fun t i j => w (ix3 t i j)

/-- The array [A, B, D] whose row (i, j) is `net` of row (i, j) of x : [A, B, K]. -/
def rowwise {A B K D : ℕ} (net : (Fin K → EReal) → Fin D → EReal) (x : (⟨3, ![A, B, K]⟩ : Shape).Idx → EReal) :
    (⟨3, ![A, B, D]⟩ : Shape).Idx → EReal :=
  fun i => net (row3 x (i 0) (i 1)) (i 2)

theorem rowwise_apply {A B K D : ℕ} (net : (Fin K → EReal) → Fin D → EReal) (x : (⟨3, ![A, B, K]⟩ : Shape).Idx → EReal)
    (i : Fin A) (j : Fin B) (d : Fin D) : rowwise net x (ix3 i j d) = net (row3 x i j) d := rfl

/-- The array [M, D] whose row r is `net` of row r of x : [M, K]. -/
def rowwise2 {M K D : ℕ} (net : (Fin K → EReal) → Fin D → EReal) (x : (⟨2, ![M, K]⟩ : Shape).Idx → EReal) :
    (⟨2, ![M, D]⟩ : Shape).Idx → EReal :=
  fun i => net (row2 x (i 0)) (i 1)

theorem rowwise2_apply {M K D : ℕ} (net : (Fin K → EReal) → Fin D → EReal) (x : (⟨2, ![M, K]⟩ : Shape).Idx → EReal)
    (r : Fin M) (d : Fin D) : rowwise2 net x (ix2 r d) = net (row2 x r) d := rfl

/-- The two constants of the normalisation as the programs spell them: the f32 words of 1024 and of 1e-5. -/
abbrev cWord : EReal := Ideal.ofBits .f32 0x44800000#32
abbrev eWord : EReal := Ideal.ofBits .f32 0x3727C5AC#32

end Cert.RowNet

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibRowNetVector.lean ====
/-
  The vector unit's spelling of the row network's stages, read row by row, over any sizes.

  A block of M rows is a matrix [M, K]; each stage maps row p of its operand to row p of its result:
  a product with a [K, N] table into a zero accumulator plus a [1, N] bias row broadcast down the
  block is `dense` of the row; the lanes' sums divided by a splat constant, the squares' sums likewise,
  max with a splat zero, rsqrt, all as [M, 1] columns broadcast back over the lanes, is `normOnePass`
  of the row; x · logistic x is `silu` entry by entry. A change of float format is the identity on the
  extended reals, so the truncations between the stages do not appear.
  (Imports LibRowNet, LibPlainMatmul, LibColRowBroadcast and LibRowSoftmax beside it.)
-/
import proofs.«108835_j47493748359435_2_alg».proof.Proof.LibRowNet
import proofs.«108835_j47493748359435_2_alg».proof.Proof.LibPlainMatmul
import proofs.«108835_j47493748359435_2_alg».proof.Proof.LibColRowBroadcast
import proofs.«108835_j47493748359435_2_alg».proof.Proof.LibRowSoftmax
import Idealize.ShloMosaic.Lib.Pipeline.Value
import Idealize.ShloMosaic.PureOps.Ideal.Laws

noncomputable section

open scoped BigOperators

namespace Cert.RowNet.Vector

open Idealize.ShloMosaic Idealize.ShloMosaic.ValueIdx Cert.RowNet

variable {M K N : ℕ}

/-- A product into a zero accumulator plus a bias row broadcast down the block, as the vector unit spells it. -/
def denseBlock {φ₁ φ₂ : FTy} (hb : (⟨2, ![1, N]⟩ : Shape).Broadcasts ⟨2, ![M, N]⟩)
    (L : FVec Ideal ⟨2, ![M, K]⟩ φ₁) (R : FVec Ideal ⟨2, ![K, N]⟩ φ₂) (B : FVec Ideal ⟨2, ![1, N]⟩ .f32) :
    FVec Ideal ⟨2, ![M, N]⟩ .f32 :=
  addf (matmul (DotDims.plain M K N) none L R (constant ⟨2, ![M, N]⟩ .f32 0x00000000#32)) (broadcastTo ⟨2, ![M, N]⟩ B hb)

/-- Row p of a dense layer on a block is `dense` of row p of its left operand. -/
theorem denseBlock_row {φ₁ φ₂ : FTy} (hb : (⟨2, ![1, N]⟩ : Shape).Broadcasts ⟨2, ![M, N]⟩)
    (L : FVec Ideal ⟨2, ![M, K]⟩ φ₁) (R : FVec Ideal ⟨2, ![K, N]⟩ φ₂) (B : FVec Ideal ⟨2, ![1, N]⟩ .f32) (p : Fin M) :
    row2 (denseBlock hb L R B) p = dense (mat2 R) (fun q => B (ix2 (0 : Fin 1) q)) (row2 L p) := by
  funext j
  show (matmul (DotDims.plain M K N) none L R (constant ⟨2, ![M, N]⟩ .f32 0x00000000#32)) (ix2 p j)
      + (broadcastTo ⟨2, ![M, N]⟩ B hb) (ix2 p j) = (∑ k : Fin K, L (ix2 p k) * R (ix2 k j)) + B (ix2 (0 : Fin 1) j)
  exact congrArg₂ (· + ·) (Cert.PlainMatmul.matmul_zero_apply M K N none L R p j)
    (Cert.ColRowBroadcast.rowBroadcast_apply B hb p j)

/-- The one-pass normalisation of a block's rows as the vector unit spells it: the lanes' sum and the squares'
    lanes' sum each as a column divided by the splat word `cw`, the variance max'ed with a splat zero, the word
    `ew` added, rsqrt, and the two columns broadcast back over the lanes. -/
def normBlock (hr : Shape.Reduces ⟨2, ![M, N]⟩ [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (cw ew : BitVec 32) (v : FVec Ideal ⟨2, ![M, N]⟩ .f32) : FVec Ideal ⟨2, ![M, N]⟩ .f32 :=
  mulf
    (subf v (broadcastTo ⟨2, ![M, N]⟩
      (divf (shapeCast ⟨2, ![M, 1]⟩ (multiReduction .add [1] ⟨1, ![M]⟩ v 0x00000000#32 hr hφ hacc) hc)
        (broadcast ⟨2, ![M, 1]⟩ (Scalar.ofBits (F := Ideal) .f32 cw))) hb))
    (broadcastTo ⟨2, ![M, N]⟩
      (rsqrt (addf
        (maximumf
          (subf
            (divf (shapeCast ⟨2, ![M, 1]⟩ (multiReduction .add [1] ⟨1, ![M]⟩ (mulf v v) 0x00000000#32 hr hφ hacc) hc)
              (broadcast ⟨2, ![M, 1]⟩ (Scalar.ofBits (F := Ideal) .f32 cw)))
            (mulf
              (divf (shapeCast ⟨2, ![M, 1]⟩ (multiReduction .add [1] ⟨1, ![M]⟩ v 0x00000000#32 hr hφ hacc) hc)
                (broadcast ⟨2, ![M, 1]⟩ (Scalar.ofBits (F := Ideal) .f32 cw)))
              (divf (shapeCast ⟨2, ![M, 1]⟩ (multiReduction .add [1] ⟨1, ![M]⟩ v 0x00000000#32 hr hφ hacc) hc)
                (broadcast ⟨2, ![M, 1]⟩ (Scalar.ofBits (F := Ideal) .f32 cw)))))
          (broadcast ⟨2, ![M, 1]⟩ (Scalar.ofBits (F := Ideal) .f32 0x00000000#32)))
        (broadcast ⟨2, ![M, 1]⟩ (Scalar.ofBits (F := Ideal) .f32 ew)))) hb)

/-- The column of row means at (p, 0). -/
theorem meanCol_apply (hr : Shape.Reduces ⟨2, ![M, N]⟩ [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (cw : BitVec 32) (v : FVec Ideal ⟨2, ![M, N]⟩ .f32) (p : Fin M) :
    (divf (shapeCast ⟨2, ![M, 1]⟩ (multiReduction .add [1] ⟨1, ![M]⟩ v 0x00000000#32 hr hφ hacc) hc)
        (broadcast ⟨2, ![M, 1]⟩ (Scalar.ofBits (F := Ideal) .f32 cw))) (ix2 p (0 : Fin 1))
      = Ideal.div (∑ k : Fin N, v (ix2 p k)) (Ideal.ofBits .f32 cw) := by
  show Ideal.div ((shapeCast ⟨2, ![M, 1]⟩ (multiReduction .add [1] ⟨1, ![M]⟩ v 0x00000000#32 hr hφ hacc) hc) (ix2 p (0 : Fin 1)))
      (Ideal.ofBits .f32 cw) = _
  rw [Cert.ColRowBroadcast.colCast_apply _ hc p (0 : Fin 1), Cert.RowSoftmax.laneSum_apply v hr hφ hacc p]

/-- Row p of the normalised block is `normOnePass` of row p. -/
theorem normBlock_row (hr : Shape.Reduces ⟨2, ![M, N]⟩ [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (cw ew : BitVec 32) (v : FVec Ideal ⟨2, ![M, N]⟩ .f32) (p : Fin M) :
    row2 (normBlock hr hφ hacc hc hb cw ew v) p = normOnePass (Ideal.ofBits .f32 cw) (Ideal.ofBits .f32 ew) (row2 v p) := by
  funext j
  have hmu := meanCol_apply hr hφ hacc hc cw v p
  have hms := meanCol_apply hr hφ hacc hc cw (mulf v v) p
  show (v (ix2 p j) - (broadcastTo ⟨2, ![M, N]⟩ _ hb) (ix2 p j)) * (broadcastTo ⟨2, ![M, N]⟩ _ hb) (ix2 p j) = _
  rw [Cert.ColRowBroadcast.colBroadcast_apply _ hb p j, Cert.ColRowBroadcast.colBroadcast_apply _ hb p j, hmu]
  show _ * Ideal.rsqrt (max (_ - _ * _) (Ideal.ofBits .f32 0x00000000#32) + Ideal.ofBits .f32 ew) = _
  rw [hms, hmu, Ideal.ofBits_zero_f32]
  rfl

/-- x · logistic x on a block, entry by entry. -/
theorem siluBlock_row (h : FVec Ideal ⟨2, ![M, N]⟩ .f32) (p : Fin M) :
    row2 (mulf h (logistic h)) p = fun j => silu (row2 h p j) := rfl

end Cert.RowNet.Vector

end
-- ==== Proof.LibLeadUnit.lean ====
/-
  A matrix carried with a leading axis of extent one, read at one entry, over any sizes and any element type.

  * [1, a, b] re-laid as [a, b]: the matrix at (i, j) is the array at (0, i, j).
  * [a, b] re-laid as [1, a, b]: the array at (0, i, j) is the matrix at (i, j).
  * The slab [q : q+1, 0 : a, 0 : b] sliced out of an [n, a, b] array: the slab at (0, i, j) is the array at (q, i, j).
-/
import Idealize.ShloMosaic.Lib.Pipeline.Value
import Idealize.ShloMosaic.Lib.ValueIdx

noncomputable section

namespace Cert.LeadUnit

open Idealize.ShloMosaic Idealize.ShloMosaic.ValueIdx

/-- [1, a, b] re-laid as [a, b] reads, at (i, j), the array at (0, i, j). -/
theorem dropLead_apply {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine shapeCast_apply v h (ix2 i j) (ix3 (0 : Fin 1) i j) ?_
  rw [Shape.rowMajor_val_three, Shape.rowMajor_val_two]
  show ((0 : ℕ) * a + i.val) * b + j.val = i.val * b + j.val
  rw [Nat.zero_mul, Nat.zero_add]

/-- [a, b] re-laid as [1, a, b] reads, at (0, i, j), the matrix at (i, j). -/
theorem addLead_apply {α : Type} {a b : ℕ} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h (ix3 z i j) (ix2 i j) ?_
  rw [Shape.rowMajor_val_three, Shape.rowMajor_val_two]
  show i.val * b + j.val = (z.val * a + i.val) * b + j.val
  have hz : z.val = 0 := by have := z.isLt; omega
  rw [hz, Nat.zero_mul, Nat.zero_add]

/-- The slab q of an [n, a, b] array, sliced out as [1, a, b], reads at (0, i, j) the array at (q, i, j). -/
theorem sliceLead_apply {α : Type} {n a b : ℕ} (x : (⟨3, ![n, a, b]⟩ : Shape).Idx → α) (q : Fin n)
    (h : (⟨3, ![n, a, b]⟩ : Shape).Slices ![q.val, 0, 0] ⟨3, ![1, a, b]⟩) (z : Fin 1) (i : Fin a) (j : Fin b) :
    extractStridedSlice ⟨3, ![1, a, b]⟩ ![q.val, 0, 0] x h (ix3 z i j) = x (ix3 q i j) := by
  refine extractStridedSlice_apply _ x h (ix3 z i j) (ix3 q i j) fun c => ?_
  match c with
  | ⟨0, _⟩ =>
    show q.val = q.val + z.val
    have hz : z.val = 0 := by have := z.isLt; omega
    omega
  | ⟨1, _⟩ => show i.val = 0 + i.val; omega
  | ⟨2, _⟩ => show j.val = 0 + j.val; omega

end Cert.LeadUnit

end
-- ==== Proof.KernelRows.lean ====
/-
  The kernel body's arithmetic, row by row.

  The body computes its output block from the block of 512 input rows and the resident tables. Each of its
  values is a stage of the row network applied to the rows of the block: the projection and the first layer
  (with the one-pass normalisation between them), three further layers with x · logistic x in between, and the
  output layer. So row p of the stored block is `netOnePass` of row p of the input block, over the tables the
  body loaded: the four layers' tables are the four slabs [l : l+1] of the stacked tables, with their leading
  unit axis dropped.
-/
import proofs.«108835_j47493748359435_2_alg».proof.Proof.LibRowNetVector
import proofs.«108835_j47493748359435_2_alg».proof.Proof.LibLeadUnit
import proofs.«108835_j47493748359435_2_alg».proof.Proof.Gen.KernelIdeal.Skeleton

noncomputable section

open scoped BigOperators

namespace Cert.KernelIdeal.Rows

open Cert.KernelIdeal Cert.KernelIdeal.Gen Idealize.ShloMosaic Idealize.ShloMosaic.ValueIdx Cert.RowNet Cert.RowNet.Vector

/-- A slab [1, 1024, 1024] with its leading axis dropped, as a table. -/
theorem slab_table (x : Vec Ideal S1x1024x1024 .bf16) :
    mat2 (shapeCast S1024x1024 x shapeCasts_S1x1024x1024_S1024x1024) = fun k j => x (ix3 (0 : Fin 1) k j) := by
  funext k j
  exact Cert.LeadUnit.dropLead_apply x shapeCasts_S1x1024x1024_S1024x1024 k j

/-- A bias slab [1, 1, 1024] with its leading axis dropped, as the one row of a [1, 1024] matrix. -/
theorem slab_bias (x : Vec Ideal S1x1x1024 .f32) :
    (fun q => (shapeCast S1x1024 x shapeCasts_S1x1x1024_S1x1024) (ix2 (0 : Fin 1) q)) = fun j => x (ix3 (0 : Fin 1) (0 : Fin 1) j) := by
  funext j
  exact Cert.LeadUnit.dropLead_apply x shapeCasts_S1x1x1024_S1x1024 (0 : Fin 1) j

/-- The first payload: the projection, the normalisation and the first layer. -/
theorem pay2_row (x0 : Vec Ideal S512x1024 .f32) (x3 : Vec Ideal S1024x1024 .bf16) (x6 : Vec Ideal S1x1024 .f32)
    (x31 : Vec Ideal S1x1024x1024 .bf16) (x33 : Vec Ideal S1x1x1024 .f32) (p : Fin 512) :
    row2 (k0_pay2 x0 x3 x6 x31 x33) p
      = dense (fun k j => x31 (ix3 (0 : Fin 1) k j)) (fun j => x33 (ix3 (0 : Fin 1) (0 : Fin 1) j))
          (normOnePass cWord eWord (dense (mat2 x3) (fun j => x6 (ix2 (0 : Fin 1) j)) (row2 x0 p))) := by
  have e : k0_pay2 x0 x3 x6 x31 x33
      = denseBlock broadcasts_S1x1024_S512x1024
          (truncf .bf16 (normBlock reduces_S512x1024_S512 (.inl rfl) rfl shapeCasts_S512_S512x1 broadcasts_S512x1_S512x1024
            0x44800000#32 0x3727C5AC#32
            (denseBlock broadcasts_S1x1024_S512x1024
              (truncf .bf16 (shapeCast S512x1024 x0 shapeCasts_S512x1024_S512x1024) bitsLt_bf16_f32)
              (shapeCast S1024x1024 x3 shapeCasts_S1024x1024_S1024x1024)
              (shapeCast S1x1024 x6 shapeCasts_S1x1024_S1x1024))) bitsLt_bf16_f32)
          (shapeCast S1024x1024 x31 shapeCasts_S1x1024x1024_S1024x1024)
          (shapeCast S1x1024 x33 shapeCasts_S1x1x1024_S1x1024) := rfl
  rw [e, denseBlock_row, slab_table, slab_bias]
  congr 1
  refine (normBlock_row reduces_S512x1024_S512 (.inl rfl) rfl shapeCasts_S512_S512x1 broadcasts_S512x1_S512x1024
    0x44800000#32 0x3727C5AC#32 _ p).trans ?_
  congr 1
  rw [denseBlock_row, shapeCast_self, shapeCast_self, shapeCast_self]
  rfl

/-- The stored block: the remaining three layers and the output layer on top of the first payload. -/
theorem pay_row (v37 : FVec Ideal S512x1024 .f32)
    (x41 : Vec Ideal S1x1024x1024 .bf16) (x43 : Vec Ideal S1x1x1024 .f32)
    (x51 : Vec Ideal S1x1024x1024 .bf16) (x53 : Vec Ideal S1x1x1024 .f32)
    (x61 : Vec Ideal S1x1024x1024 .bf16) (x63 : Vec Ideal S1x1x1024 .f32)
    (x69 : Vec Ideal S1024x1024 .bf16) (x72 : Vec Ideal S1x1024 .f32) (p : Fin 512) :
    row2 (k0_pay1 (k0_pay4 v37 (logistic v37) x41 x43 x51 x53 x61 x63 x69) x72) p
      = dense (mat2 x69) (fun j => x72 (ix2 (0 : Fin 1) j))
          (dense (fun k j => x61 (ix3 (0 : Fin 1) k j)) (fun j => x63 (ix3 (0 : Fin 1) (0 : Fin 1) j))
            (fun j₃ => silu (dense (fun k j => x51 (ix3 (0 : Fin 1) k j)) (fun j => x53 (ix3 (0 : Fin 1) (0 : Fin 1) j))
              (fun j₂ => silu (dense (fun k j => x41 (ix3 (0 : Fin 1) k j)) (fun j => x43 (ix3 (0 : Fin 1) (0 : Fin 1) j))
                (fun j₁ => silu (row2 v37 p j₁)) j₂)) j₃))) := by
  have e : k0_pay1 (k0_pay4 v37 (logistic v37) x41 x43 x51 x53 x61 x63 x69) x72
      = denseBlock broadcasts_S1x1024_S512x1024
          (truncf .bf16
            (denseBlock broadcasts_S1x1024_S512x1024
              (truncf .bf16
                (mulf
                  (denseBlock broadcasts_S1x1024_S512x1024
                    (truncf .bf16
                      (mulf
                        (denseBlock broadcasts_S1x1024_S512x1024 (truncf .bf16 (mulf v37 (logistic v37)) bitsLt_bf16_f32)
                          (shapeCast S1024x1024 x41 shapeCasts_S1x1024x1024_S1024x1024)
                          (shapeCast S1x1024 x43 shapeCasts_S1x1x1024_S1x1024))
                        (logistic
                          (denseBlock broadcasts_S1x1024_S512x1024 (truncf .bf16 (mulf v37 (logistic v37)) bitsLt_bf16_f32)
                            (shapeCast S1024x1024 x41 shapeCasts_S1x1024x1024_S1024x1024)
                            (shapeCast S1x1024 x43 shapeCasts_S1x1x1024_S1x1024)))) bitsLt_bf16_f32)
                    (shapeCast S1024x1024 x51 shapeCasts_S1x1024x1024_S1024x1024)
                    (shapeCast S1x1024 x53 shapeCasts_S1x1x1024_S1x1024))
                  (logistic
                    (denseBlock broadcasts_S1x1024_S512x1024
                      (truncf .bf16
                        (mulf
                          (denseBlock broadcasts_S1x1024_S512x1024 (truncf .bf16 (mulf v37 (logistic v37)) bitsLt_bf16_f32)
                            (shapeCast S1024x1024 x41 shapeCasts_S1x1024x1024_S1024x1024)
                            (shapeCast S1x1024 x43 shapeCasts_S1x1x1024_S1x1024))
                          (logistic
                            (denseBlock broadcasts_S1x1024_S512x1024 (truncf .bf16 (mulf v37 (logistic v37)) bitsLt_bf16_f32)
                              (shapeCast S1024x1024 x41 shapeCasts_S1x1024x1024_S1024x1024)
                              (shapeCast S1x1024 x43 shapeCasts_S1x1x1024_S1x1024)))) bitsLt_bf16_f32)
                      (shapeCast S1024x1024 x51 shapeCasts_S1x1024x1024_S1024x1024)
                      (shapeCast S1x1024 x53 shapeCasts_S1x1x1024_S1x1024)))) bitsLt_bf16_f32)
              (shapeCast S1024x1024 x61 shapeCasts_S1x1024x1024_S1024x1024)
              (shapeCast S1x1024 x63 shapeCasts_S1x1x1024_S1x1024)) bitsLt_bf16_f32)
          (shapeCast S1024x1024 x69 shapeCasts_S1024x1024_S1024x1024)
          (shapeCast S1x1024 x72 shapeCasts_S1x1024_S1x1024) := rfl
  rw [e, denseBlock_row, shapeCast_self, shapeCast_self]
  congr 1
  show row2 (denseBlock _ _ _ _) p = _
  rw [denseBlock_row, slab_table, slab_bias]
  congr 1
  funext j₃
  show silu (row2 (denseBlock _ _ _ _) p j₃) = _
  rw [denseBlock_row, slab_table, slab_bias]
  congr 2
  funext j₂
  show silu (row2 (denseBlock _ _ _ _) p j₂) = _
  rw [denseBlock_row, slab_table, slab_bias]
  rfl

end Cert.KernelIdeal.Rows

end
-- ==== Proof.KernelBlock.lean ====
/-
  One grid point's output block as the row network of its input block.

  The body loads its input block whole, the projection and output tables whole, and the four layers'
  tables as the four slabs [l : l+1] of the two stacked tables. Read through those rectangles, slab l
  of a stack is table l of the stack; so row p of the stored block is `netOnePass` of row p of the
  input block over the tables as the staging buffers hold them.
-/
import proofs.«108835_j47493748359435_2_alg».proof.Proof.KernelRows
import proofs.«108835_j47493748359435_2_alg».proof.Proof.Gen.KernelIdeal.Frame

noncomputable section

open scoped BigOperators

namespace Cert.KernelIdeal.Rows

open Cert.KernelIdeal Cert.KernelIdeal.Gen Idealize.ShloMosaic Idealize.ShloMosaic.ValueIdx Cert.RowNet

/-- An index of a slab, read through a unit-stride rectangle that starts at slab l: axis 0 is l, the other
    two axes are the index's own. -/
syntax "slab_index " term:max term:max : tactic
macro_rules
  | `(tactic| slab_index $k $j) => `(tactic|
      (congr 1; funext a; apply Fin.ext
       match a with
       | ⟨0, _⟩ => rfl
       | ⟨1, _⟩ => (first | rfl | (show 0 + 1 * ($k).val = ($k).val; omega))
       | ⟨2, _⟩ => (show 0 + 1 * ($j).val = ($j).val; omega)))

theorem ld_table0 (X : Vec Ideal S4x1024x1024 .bf16) :
    (fun k j => (View.ld X r0_3) (ix3 (0 : Fin 1) k j)) = mat3 X 0 := by
  funext k j
  show X (r0_3.idx (ix3 (0 : Fin 1) k j)) = X (ix3 (0 : Fin 4) k j)
  slab_index k j

theorem ld_table1 (X : Vec Ideal S4x1024x1024 .bf16) :
    (fun k j => (View.ld X r0_5) (ix3 (0 : Fin 1) k j)) = mat3 X 1 := by
  funext k j
  show X (r0_5.idx (ix3 (0 : Fin 1) k j)) = X (ix3 (1 : Fin 4) k j)
  slab_index k j

theorem ld_table2 (X : Vec Ideal S4x1024x1024 .bf16) :
    (fun k j => (View.ld X r0_7) (ix3 (0 : Fin 1) k j)) = mat3 X 2 := by
  funext k j
  show X (r0_7.idx (ix3 (0 : Fin 1) k j)) = X (ix3 (2 : Fin 4) k j)
  slab_index k j

theorem ld_table3 (X : Vec Ideal S4x1024x1024 .bf16) :
    (fun k j => (View.ld X r0_9) (ix3 (0 : Fin 1) k j)) = mat3 X 3 := by
  funext k j
  show X (r0_9.idx (ix3 (0 : Fin 1) k j)) = X (ix3 (3 : Fin 4) k j)
  slab_index k j

theorem ld_bias0 (X : Vec Ideal S4x1x1024 .f32) :
    (fun j => (View.ld X r0_4) (ix3 (0 : Fin 1) (0 : Fin 1) j)) = fun j => X (ix3 (0 : Fin 4) (0 : Fin 1) j) := by
  funext j
  show X (r0_4.idx (ix3 (0 : Fin 1) (0 : Fin 1) j)) = X (ix3 (0 : Fin 4) (0 : Fin 1) j)
  slab_index (0 : Fin 1) j

theorem ld_bias1 (X : Vec Ideal S4x1x1024 .f32) :
    (fun j => (View.ld X r0_6) (ix3 (0 : Fin 1) (0 : Fin 1) j)) = fun j => X (ix3 (1 : Fin 4) (0 : Fin 1) j) := by
  funext j
  show X (r0_6.idx (ix3 (0 : Fin 1) (0 : Fin 1) j)) = X (ix3 (1 : Fin 4) (0 : Fin 1) j)
  slab_index (0 : Fin 1) j

theorem ld_bias2 (X : Vec Ideal S4x1x1024 .f32) :
    (fun j => (View.ld X r0_8) (ix3 (0 : Fin 1) (0 : Fin 1) j)) = fun j => X (ix3 (2 : Fin 4) (0 : Fin 1) j) := by
  funext j
  show X (r0_8.idx (ix3 (0 : Fin 1) (0 : Fin 1) j)) = X (ix3 (2 : Fin 4) (0 : Fin 1) j)
  slab_index (0 : Fin 1) j

theorem ld_bias3 (X : Vec Ideal S4x1x1024 .f32) :
    (fun j => (View.ld X r0_10) (ix3 (0 : Fin 1) (0 : Fin 1) j)) = fun j => X (ix3 (3 : Fin 4) (0 : Fin 1) j) := by
  funext j
  show X (r0_10.idx (ix3 (0 : Fin 1) (0 : Fin 1) j)) = X (ix3 (3 : Fin 4) (0 : Fin 1) j)
  slab_index (0 : Fin 1) j

/-- Row p of what the body stores, from the seven staging buffers' contents: the row network of row p of the
    input block. -/
theorem block_row (X0 : Vec Ideal S512x1024 .f32) (X1 : Vec Ideal S1024x1024 .bf16) (X2 : Vec Ideal S1x1024 .f32)
    (X3 : Vec Ideal S4x1024x1024 .bf16) (X4 : Vec Ideal S4x1x1024 .f32) (X5 : Vec Ideal S1024x1024 .bf16)
    (X6 : Vec Ideal S1x1024 .f32) (p : Fin 512) :
    row2 (k0_pay1 (k0_pay4 (k0_pay2 X0 X1 X2 (View.ld X3 r0_3) (View.ld X4 r0_4))
        (k0_pay3 X0 X1 X2 (View.ld X3 r0_3) (View.ld X4 r0_4))
        (View.ld X3 r0_5) (View.ld X4 r0_6) (View.ld X3 r0_7) (View.ld X4 r0_8) (View.ld X3 r0_9) (View.ld X4 r0_10) X5) X6) p
      = netOnePass cWord eWord (mat2 X1) (fun j => X2 (ix2 (0 : Fin 1) j)) (mat3 X3)
          (fun l j => X4 (ix3 l (0 : Fin 1) j)) (mat2 X5) (fun j => X6 (ix2 (0 : Fin 1) j)) (row2 X0 p) := by
  have h3 : k0_pay3 X0 X1 X2 (View.ld X3 r0_3) (View.ld X4 r0_4)
      = logistic (k0_pay2 X0 X1 X2 (View.ld X3 r0_3) (View.ld X4 r0_4)) := rfl
  rw [h3, pay_row, pay2_row, ld_table0, ld_table1, ld_table2, ld_table3, ld_bias0, ld_bias1, ld_bias2, ld_bias3]
  rfl

end Cert.KernelIdeal.Rows

end
-- ==== Proof.LibFlattenLead.lean ====
/-
  Re-layings around two fused leading axes, read at one entry, over any sizes and element type.

  A three-axis array [a, b, k] and the two-axis array [n, k] with n = a · b hold the same entries in the same row-major
  order: entry (i, j, q) of the first is entry (i · b + j, q) of the second, in both directions of the re-laying.
  A vector [n] laid out as [1, 1, n] and repeated to [a, b, n] holds entry q at (i, j, q); a matrix [b, n] laid out as
  [1, b, n] and repeated to [a, b, n] holds entry (j, q) at (i, j, q); a matrix [a, n] laid out as [a, 1, n] and
  repeated to [a, b, n] holds entry (i, q) at (i, j, q).
-/
import Idealize.ShloMosaic.Lib.Pipeline.Value
import Idealize.ShloMosaic.Lib.ValueIdx

noncomputable section

namespace Cert.LibFlattenLead

open Idealize.ShloMosaic Idealize.ShloMosaic.ValueIdx

variable {α : Type}

/-- [a, b, k] re-laid as [n, k], read at (r, q) with r = i · b + j: the entry (i, j, q). -/
theorem fuse_apply {a b k n : Nat} (x : (⟨3, ![a, b, k]⟩ : Shape).Idx → α)
    (h : (⟨3, ![a, b, k]⟩ : Shape).ShapeCasts ⟨2, ![n, k]⟩) (i : Fin a) (j : Fin b) (q : Fin k) (r : Fin n)
    (hr : r.val = i.val * b + j.val) :
    shapeCast ⟨2, ![n, k]⟩ x h (ix2 r q) = x (ix3 i j q) :=
  shapeCast_apply x h _ _ (by
    rw [Shape.rowMajor_val_two, Shape.rowMajor_val_three]
    show (i.val * b + j.val) * k + q.val = r.val * k + q.val
    rw [hr])

/-- [n, k] re-laid as [a, b, k], read at (i, j, q): the entry (r, q) with r = i · b + j. -/
theorem unfuse_apply {a b k n : Nat} (x : (⟨2, ![n, k]⟩ : Shape).Idx → α)
    (h : (⟨2, ![n, k]⟩ : Shape).ShapeCasts ⟨3, ![a, b, k]⟩) (i : Fin a) (j : Fin b) (q : Fin k) (r : Fin n)
    (hr : r.val = i.val * b + j.val) :
    shapeCast ⟨3, ![a, b, k]⟩ x h (ix3 i j q) = x (ix2 r q) :=
  shapeCast_apply x h _ _ (by
    rw [Shape.rowMajor_val_two, Shape.rowMajor_val_three]
    show r.val * k + q.val = (i.val * b + j.val) * k + q.val
    rw [hr])

/-- A vector [n] re-laid as [1, 1, n], read at (0, 0, q). -/
theorem vec_to_row3 {n : Nat} (x : (⟨1, ![n]⟩ : Shape).Idx → α)
    (h : (⟨1, ![n]⟩ : Shape).ShapeCasts ⟨3, ![1, 1, n]⟩) (q : Fin n) :
    shapeCast ⟨3, ![1, 1, n]⟩ x h (ix3 (0 : Fin 1) (0 : Fin 1) q) = x (ix1 q) :=
  shapeCast_apply x h _ _ (by
    rw [Shape.rowMajor_val_one, Shape.rowMajor_val_three]
    show q.val = (0 * 1 + 0) * n + q.val
    omega)

/-- [1, 1, n] repeated to [a, b, n], read at (i, j, q). -/
theorem row3_broadcast {a b n : Nat} (x : (⟨3, ![1, 1, n]⟩ : Shape).Idx → α)
    (h : (⟨3, ![1, 1, n]⟩ : Shape).Broadcasts ⟨3, ![a, b, n]⟩) (i : Fin a) (j : Fin b) (q : Fin n) :
    broadcastTo ⟨3, ![a, b, n]⟩ x h (ix3 i j q) = x (ix3 (0 : Fin 1) (0 : Fin 1) q) :=
  broadcastTo_apply x h _ _ (fun d => by
    match d with
    | ⟨0, _⟩ => rfl
    | ⟨1, _⟩ => rfl
    | ⟨2, _⟩ =>
      show q.val = if n = 1 then 0 else q.val
      split
      · have := q.isLt; omega
      · rfl)

/-- A matrix [b, n] re-laid as [1, b, n], read at (0, j, q). -/
theorem mat_to_lead3 {b n : Nat} (x : (⟨2, ![b, n]⟩ : Shape).Idx → α)
    (h : (⟨2, ![b, n]⟩ : Shape).ShapeCasts ⟨3, ![1, b, n]⟩) (j : Fin b) (q : Fin n) :
    shapeCast ⟨3, ![1, b, n]⟩ x h (ix3 (0 : Fin 1) j q) = x (ix2 j q) :=
  shapeCast_apply x h _ _ (by
    rw [Shape.rowMajor_val_two, Shape.rowMajor_val_three]
    show j.val * n + q.val = (0 * b + j.val) * n + q.val
    rw [Nat.zero_mul, Nat.zero_add])

/-- [1, b, n] repeated to [a, b, n], read at (i, j, q). -/
theorem lead3_broadcast {a b n : Nat} (x : (⟨3, ![1, b, n]⟩ : Shape).Idx → α)
    (h : (⟨3, ![1, b, n]⟩ : Shape).Broadcasts ⟨3, ![a, b, n]⟩) (i : Fin a) (j : Fin b) (q : Fin n) :
    broadcastTo ⟨3, ![a, b, n]⟩ x h (ix3 i j q) = x (ix3 (0 : Fin 1) j q) :=
  broadcastTo_apply x h _ _ (fun d => by
    match d with
    | ⟨0, _⟩ => rfl
    | ⟨1, _⟩ =>
      show j.val = if b = 1 then 0 else j.val
      split
      · have := j.isLt; omega
      · rfl
    | ⟨2, _⟩ =>
      show q.val = if n = 1 then 0 else q.val
      split
      · have := q.isLt; omega
      · rfl)

/-- A matrix [a, n] re-laid as [a, 1, n], read at (i, 0, q). -/
theorem mat_to_mid3 {a n : Nat} (x : (⟨2, ![a, n]⟩ : Shape).Idx → α)
    (h : (⟨2, ![a, n]⟩ : Shape).ShapeCasts ⟨3, ![a, 1, n]⟩) (i : Fin a) (q : Fin n) :
    shapeCast ⟨3, ![a, 1, n]⟩ x h (ix3 i (0 : Fin 1) q) = x (ix2 i q) :=
  shapeCast_apply x h _ _ (by
    rw [Shape.rowMajor_val_two, Shape.rowMajor_val_three]
    show i.val * n + q.val = (i.val * 1 + 0) * n + q.val
    rw [Nat.mul_one, Nat.add_zero])

/-- [a, 1, n] repeated to [a, b, n], read at (i, j, q). -/
theorem mid3_broadcast {a b n : Nat} (x : (⟨3, ![a, 1, n]⟩ : Shape).Idx → α)
    (h : (⟨3, ![a, 1, n]⟩ : Shape).Broadcasts ⟨3, ![a, b, n]⟩) (i : Fin a) (j : Fin b) (q : Fin n) :
    broadcastTo ⟨3, ![a, b, n]⟩ x h (ix3 i j q) = x (ix3 i (0 : Fin 1) q) :=
  broadcastTo_apply x h _ _ (fun d => by
    match d with
    | ⟨0, _⟩ =>
      show i.val = if a = 1 then 0 else i.val
      split
      · have := i.isLt; omega
      · rfl
    | ⟨1, _⟩ => rfl
    | ⟨2, _⟩ =>
      show q.val = if n = 1 then 0 else q.val
      split
      · have := q.isLt; omega
      · rfl)

end Cert.LibFlattenLead

end
-- ==== Proof.KernelArray.lean ====
/-
  The kernel's result array.

  The grid has 32 points; point t stages rows 512·t … 512·t+511 of the [16384, 1024] input (the argument
  [4, 4096, 1024] with its two leading axes fused) and every table whole, and writes back rows
  512·t … 512·t+511 of the output. So every output row r is the row network of input row r, the 32 blocks
  cover the array, and the result — the [16384, 1024] array with its leading axis split back into
  [4, 4096] — has row (b, s) equal to `netOnePass` of row (b, s) of the argument, over the argument tables:
  the tables reach the kernel through changes of float format (the identity on the extended reals) and
  through re-layings [1024] → [1, 1024] and [4, 1024] → [4, 1, 1024].
-/
import proofs.«108835_j47493748359435_2_alg».proof.Proof.KernelBlock
import proofs.«108835_j47493748359435_2_alg».proof.Proof.LibFlattenLead
import proofs.«108835_j47493748359435_2_alg».proof.Proof.LibColRowBroadcast
import Idealize.ShloMosaic.Lib.Pipeline.Value
import Idealize.ShloMosaic.Lib.StableHlo.Run

noncomputable section

open scoped BigOperators

namespace Cert.KernelIdeal.ArrayValue

open Cert.KernelIdeal Cert.KernelIdeal.Gen Cert.KernelIdeal.Rows Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps over the grid: the input rows' window and the output's move with the point along the
    rows; every table's window stays at block 0. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row network over the tables as the region finds them. -/
def blockNet (c : Dev nD) : (Fin 1024 → EReal) → Fin 1024 → EReal :=
  netOnePass cWord eWord (mat2 (V m c main_v1 : S1024x1024.Idx → EReal))
    (fun j => (V m c main_v4 : S1x1024.Idx → EReal) (ix2 (0 : Fin 1) j))
    (mat3 (V m c main_v2 : S4x1024x1024.Idx → EReal))
    (fun l j => (V m c main_v5 : S4x1x1024.Idx → EReal) (ix3 l (0 : Fin 1) j))
    (mat2 (V m c main_v3 : S1024x1024.Idx → EReal))
    (fun j => (V m c main_v6 : S1x1024.Idx → EReal) (ix2 (0 : Fin 1) j))

/-- The output array [16384, 1024]: row r is the row network of row r of the fused input. -/
def outRows (c : Dev nD) : S16384x1024.Idx → EReal :=
  rowwise2 (blockNet m c) (V m c main_v0 : S16384x1024.Idx → EReal)

/-! ## The blocks the points stage -/

theorem blk1 (c : Dev nD) (t : Fin cfg0.N) : iblk m c 1 t = (V m c main_v1 : S1024x1024.Idx → EReal) := by
  obtain ⟨-, -, -, -, e0, e1, -⟩ := idx_facts t
  funext y
  show V m c main_v1 (((cfg0.win 1).blk t).view.emb y) = V m c main_v1 y
  congr 1; funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk2 (c : Dev nD) (t : Fin cfg0.N) : iblk m c 2 t = (V m c main_v4 : S1x1024.Idx → EReal) := by
  obtain ⟨-, -, -, -, -, -, e0, e1, -⟩ := idx_facts t
  funext y
  show V m c main_v4 (((cfg0.win 2).blk t).view.emb y) = V m c main_v4 y
  congr 1; funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem blk3 (c : Dev nD) (t : Fin cfg0.N) : iblk m c 3 t = (V m c main_v2 : S4x1024x1024.Idx → EReal) := by
  obtain ⟨-, -, -, -, -, -, -, -, e0, e1, e2, -⟩ := idx_facts t
  funext y
  show V m c main_v2 (((cfg0.win 3).blk t).view.emb y) = V m c main_v2 y
  congr 1; funext a; apply Fin.ext
  match a with
  | ⟨0, _⟩ => show win0_3.index t (0 : Fin 3) * 4 + 1 * (y 0).val = (y 0).val; omega
  | ⟨1, _⟩ => show win0_3.index t (1 : Fin 3) * 1024 + 1 * (y 1).val = (y 1).val; omega
  | ⟨2, _⟩ => show win0_3.index t (2 : Fin 3) * 1024 + 1 * (y 2).val = (y 2).val; omega

theorem blk4 (c : Dev nD) (t : Fin cfg0.N) : iblk m c 4 t = (V m c main_v5 : S4x1x1024.Idx → EReal) := by
  obtain ⟨-, -, -, -, -, -, -, -, -, -, -, e0, e1, e2, -⟩ := idx_facts t
  funext y
  show V m c main_v5 (((cfg0.win 4).blk t).view.emb y) = V m c main_v5 y
  congr 1; funext a; apply Fin.ext
  match a with
  | ⟨0, _⟩ => show win0_4.index t (0 : Fin 3) * 4 + 1 * (y 0).val = (y 0).val; omega
  | ⟨1, _⟩ => show win0_4.index t (1 : Fin 3) * 1 + 1 * (y 1).val = (y 1).val; omega
  | ⟨2, _⟩ => show win0_4.index t (2 : Fin 3) * 1024 + 1 * (y 2).val = (y 2).val; omega

theorem blk5 (c : Dev nD) (t : Fin cfg0.N) : iblk m c 5 t = (V m c main_v3 : S1024x1024.Idx → EReal) := by
  obtain ⟨-, -, -, -, -, -, -, -, -, -, -, -, -, -, e0, e1, -⟩ := idx_facts t
  funext y
  show V m c main_v3 (((cfg0.win 5).blk t).view.emb y) = V m c main_v3 y
  congr 1; funext a; apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

theorem blk6 (c : Dev nD) (t : Fin cfg0.N) : iblk m c 6 t = (V m c main_v6 : S1x1024.Idx → EReal) := by
  obtain ⟨-, -, -, -, -, -, -, -, -, -, -, -, -, -, -, -, e0, e1⟩ := idx_facts t
  funext y
  show V m c main_v6 (((cfg0.win 6).blk t).view.emb y) = V m c main_v6 y
  congr 1; funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- The row of the array that row p of point t's block is. -/
def rowOf (t : Fin cfg0.N) (p : Fin 512) : Fin 16384 :=
  ⟨512 * t.val + p.val, by have h : t.val < 32 := N_0 ▸ t.isLt; have := p.isLt; omega⟩

theorem blk0_row (c : Dev nD) (t : Fin cfg0.N) (p : Fin 512) :
    row2 (iblk m c 0 t) p = row2 (V m c main_v0 : S16384x1024.Idx → EReal) (rowOf t p) := by
  obtain ⟨e0, e1, -⟩ := idx_facts t
  funext q
  show V m c main_v0 (((cfg0.win 0).blk t).view.emb (ix2 p q)) = V m c main_v0 (ix2 (rowOf t p) q)
  congr 1; funext a; apply Fin.ext
  match a with
  | ⟨0, _⟩ => show win0_0.index t (0 : Fin 2) * 512 + 1 * p.val = 512 * t.val + p.val; omega
  | ⟨1, _⟩ => show win0_0.index t (1 : Fin 2) * 1024 + 1 * q.val = q.val; omega

theorem out_emb (t : Fin cfg0.N) (p : Fin 512) (q : Fin 1024) :
    ((cfg0.win 7).blk t).view.emb (ix2 p q) = ix2 (rowOf t p) q := by
  obtain ⟨-, -, e0, e1, -⟩ := idx_facts t
  funext a; apply Fin.ext
  match a with
  | ⟨0, _⟩ => show win0_7.index t (0 : Fin 2) * 512 + 1 * p.val = 512 * t.val + p.val; omega
  | ⟨1, _⟩ => show win0_7.index t (1 : Fin 2) * 1024 + 1 * q.val = q.val; omega

/-! ## What a point writes back, the cover, the array after the run -/

/-- What point t writes back is block t of `outRows`. -/
theorem flushed_eq (c : Dev nD) (t : Fin cfg0.N) :
    (dats m 0 c).flushed 7 t = ((cfg0.win 7).blk t).view.read (Elt Ideal) (outRows m c) := by
  show (cfg0.win 7).cut (grid0.coords t) ((dats m 0 c).after 7 t) = _
  rw [after0_7]
  unfold out0_7
  rw [View.canon_unit_zero zeros2]
  simp only [View.ld_unit_zero (S := S512x1024) zeros2, View.ld_unit_zero (S := S1024x1024) zeros2,
    View.ld_unit_zero (S := S1x1024) zeros2]
  funext j
  obtain ⟨p, q, rfl⟩ : ∃ (p : Fin 512) (q : Fin 1024), j = ix2 p q := ⟨j 0, j 1, eq_ix2 j⟩
  refine (congrFun (block_row (iblk m c 0 t) (iblk m c 1 t) (iblk m c 2 t) (iblk m c 3 t) (iblk m c 4 t) (iblk m c 5 t)
    (iblk m c 6 t) p) q).trans ?_
  show _ = outRows m c (((cfg0.win 7).blk t).view.emb (ix2 p q))
  rw [out_emb t p q, blk0_row m c t p, blk1 m c t, blk2 m c t, blk3 m c t, blk4 m c t, blk5 m c t, blk6 m c t]
  rfl

/-- An index of the array is in point t's block iff each coordinate is in the block's range on its axis. -/
theorem mem_blk (t : Fin cfg0.N) (i : S16384x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v7).slice (win0_7.rect t)).set ↔ _
  rw [View.set_slice_whole, Rect.mem_set_unit]
  exact Iff.rfl

/-- Row r lies in the block of point r / 512. -/
theorem cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  let t : Fin cfg0.N := ⟨(i 0).val / 512, by show _ < grid0.N; rw [N_0]; omega⟩
  have ht : t.val = (i 0).val / 512 := rfl
  obtain ⟨-, -, e0, e1, -⟩ := idx_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The output array after the run. -/
theorem final (c : Dev nD) : (dats m 0 c).arrAt 7 cfg0.N = outRows m c :=
  (dats m 0 c).arrAt_eq_of_cover 7 (outRows m c) (fun t _ => flushed_eq m c t) cover

/-! ## The arrays the region finds, from the arguments -/

theorem V0_eq (c : Dev nD) : (V m c main_v0 : S16384x1024.Idx → EReal)
    = shapeCast S16384x1024 (m ((c : Thread nD τ).loc main_arg0)) shapeCasts_S4x4096x1024_S16384x1024 := by
  show StableHlo.after hostOps0 (fun b => m (c, b)) (Proc.devRef .tc main_v0) = _
  after_results
  rfl

theorem V1_eq (c : Dev nD) : (V m c main_v1 : S1024x1024.Idx → EReal) = m ((c : Thread nD τ).loc main_arg1) := by
  show StableHlo.after hostOps0 (fun b => m (c, b)) (Proc.devRef .tc main_v1) = _
  after_results
  rfl

theorem V2_eq (c : Dev nD) : (V m c main_v2 : S4x1024x1024.Idx → EReal) = m ((c : Thread nD τ).loc main_arg3) := by
  show StableHlo.after hostOps0 (fun b => m (c, b)) (Proc.devRef .tc main_v2) = _
  after_results
  rfl

theorem V3_eq (c : Dev nD) : (V m c main_v3 : S1024x1024.Idx → EReal) = m ((c : Thread nD τ).loc main_arg5) := by
  show StableHlo.after hostOps0 (fun b => m (c, b)) (Proc.devRef .tc main_v3) = _
  after_results
  rfl

theorem V4_eq (c : Dev nD) : (V m c main_v4 : S1x1024.Idx → EReal)
    = shapeCast S1x1024 (m ((c : Thread nD τ).loc main_arg2)) shapeCasts_S1024_S1x1024 := by
  show StableHlo.after hostOps0 (fun b => m (c, b)) (Proc.devRef .tc main_v4) = _
  after_results
  rfl

theorem V5_eq (c : Dev nD) : (V m c main_v5 : S4x1x1024.Idx → EReal)
    = shapeCast S4x1x1024 (m ((c : Thread nD τ).loc main_arg4)) shapeCasts_S4x1024_S4x1x1024 := by
  show StableHlo.after hostOps0 (fun b => m (c, b)) (Proc.devRef .tc main_v5) = _
  after_results
  rfl

theorem V6_eq (c : Dev nD) : (V m c main_v6 : S1x1024.Idx → EReal)
    = shapeCast S1x1024 (m ((c : Thread nD τ).loc main_arg6)) shapeCasts_S1024_S1x1024 := by
  show StableHlo.after hostOps0 (fun b => m (c, b)) (Proc.devRef .tc main_v6) = _
  after_results
  rfl

/-- The row network over the ARGUMENT tables. -/
def argNet (c : Dev nD) : (Fin 1024 → EReal) → Fin 1024 → EReal :=
  netOnePass cWord eWord (mat2 (m ((c : Thread nD τ).loc main_arg1) : S1024x1024.Idx → EReal))
    (vec1 (m ((c : Thread nD τ).loc main_arg2) : S1024.Idx → EReal))
    (mat3 (m ((c : Thread nD τ).loc main_arg3) : S4x1024x1024.Idx → EReal))
    (mat2 (m ((c : Thread nD τ).loc main_arg4) : S4x1024.Idx → EReal))
    (mat2 (m ((c : Thread nD τ).loc main_arg5) : S1024x1024.Idx → EReal))
    (vec1 (m ((c : Thread nD τ).loc main_arg6) : S1024.Idx → EReal))

theorem blockNet_eq (c : Dev nD) : blockNet m c = argNet m c := by
  unfold blockNet argNet
  rw [V1_eq, V2_eq, V3_eq, V4_eq, V5_eq, V6_eq]
  congr 1
  · funext j
    exact Cert.ColRowBroadcast.rowCast_apply _ shapeCasts_S1024_S1x1024 (0 : Fin 1) j
  · funext l j
    exact Cert.LibFlattenLead.mat_to_mid3 _ shapeCasts_S4x1024_S4x1x1024 l j
  · funext j
    exact Cert.ColRowBroadcast.rowCast_apply _ shapeCasts_S1024_S1x1024 (0 : Fin 1) j

/-- The kernel's result: row (b, s) is the row network of row (b, s) of the first argument. -/
def result (c : Dev nD) : S4x4096x1024.Idx → EReal :=
  rowwise (argNet m c) (m ((c : Thread nD τ).loc main_arg0) : S4x4096x1024.Idx → EReal)

theorem split_outRows (c : Dev nD) :
    shapeCast S4x4096x1024 (outRows m c) shapeCasts_S16384x1024_S4x4096x1024 = result m c := by
  funext i
  obtain ⟨b, s, e, rfl⟩ : ∃ (b : Fin 4) (s : Fin 4096) (e : Fin 1024), i = ix3 b s e := ⟨i 0, i 1, i 2, eq_ix3 i⟩
  have hr : (⟨b.val * 4096 + s.val, by have := b.isLt; have := s.isLt; omega⟩ : Fin 16384).val = b.val * 4096 + s.val := rfl
  rw [Cert.LibFlattenLead.unfuse_apply (outRows m c) shapeCasts_S16384x1024_S4x4096x1024 b s e _ hr]
  show blockNet m c (row2 (V m c main_v0 : S16384x1024.Idx → EReal) _) e = argNet m c (row3 _ b s) e
  rw [blockNet_eq, V0_eq]
  congr 2
  funext k
  exact Cert.LibFlattenLead.fuse_apply _ shapeCasts_S4x4096x1024_S16384x1024 b s k _ hr

/-! ## The run -/

/-- The result buffer after the run: the lines after the region re-lay the output array. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v8) = result m c := by
  refine ((h c).2 main_v8 (Pipeline.mem_restRefs_of main_v8 (by decide) (by decide))).trans ?_
  unfold Pipeline.afterTail₀
  show StableHlo.after hostOps1 _ (Proc.devRef .tc main_v8) = _
  after_results
  refine Eq.trans ?_ (split_outRows m c)
  rw [Pipeline.withArrays_arr spec0 launch0.win.arr_inj c _ _ 7, final]
  rfl

/-- Every weakly fair execution of the idealized kernel ends with its result at `result` and its arguments unchanged. -/
theorem run : θ_run (defs (F := Ideal)) (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨post_result m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.ArrayValue

end
-- ==== Proof.RefOps.lean ====
/-
  The reference program as a straight line of array operations, and its run.

  The program is sixty-one statements, four of them calls of module-local functions: the row variance
  (which itself calls a select-or-constant helper) and the gate x ↦ x · (1 / (1 + e^(−x))), called three times.
  A call executes the callee's body on the call's operands, each value of the body in a buffer of its
  own; listing the callee's operations in place of the call gives one line of 107 operations. Every
  operation writes one buffer as a function of the buffers it reads, so what the device holds at the end
  is the fold of the operations' results over what it held at launch.
-/
import proofs.«108835_j47493748359435_2_alg».proof.ReferenceIdeal
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

/-- The program's 107 operations, in order, each call replaced by its callee's operations over the call's buffers. -/
abbrev ops : List (HloOp τ sig (Elt F)) :=
  [ StableHlo.binary main_arg0 main_arg1 main_v0 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg2 main_v1 (broadcastInDim S1x1x1024 ![2] bcast_S1024_S1x1x1024_2 : (⟨S1024, .f32⟩ : BufTy).Contents (Elt F) → (⟨S1x1x1024, .f32⟩ : BufTy).Contents (Elt F)),
    StableHlo.unary main_v1 main_v2 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v0 main_v2 main_v3 (addf : (⟨S4x4096x1024, .f32⟩ : BufTy).Contents (Elt F) → (⟨S4x4096x1024, .f32⟩ : BufTy).Contents (Elt F) → (⟨S4x4096x1024, .f32⟩ : BufTy).Contents (Elt F)),
    StableHlo.nullary main_cst (constant S_ .f32 0x00000000#32),
    StableHlo.binary main_v3 main_cst main_v4 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    StableHlo.unary main_v4 main_v5 (broadcastInDim S4x4096x1 ![0, 1] bcast_S4x4096_S4x4096x1_0_1 : (⟨S4x4096, .f32⟩ : BufTy).Contents (Elt F) → (⟨S4x4096x1, .f32⟩ : BufTy).Contents (Elt F)),
    StableHlo.nullary main_cst_0 (constant S_ .f32 0x44800000#32),
    StableHlo.unary main_cst_0 main_v6 (broadcastInDim S4x4096x1 ![] bcast_S_S4x4096x1 : (⟨S_, .f32⟩ : BufTy).Contents (Elt F) → (⟨S4x4096x1, .f32⟩ : BufTy).Contents (Elt F)),
    StableHlo.binary main_v5 main_v6 main_v7 (Host.divf : (⟨S4x4096x1, .f32⟩ : BufTy).Contents (Elt F) → (⟨S4x4096x1, .f32⟩ : BufTy).Contents (Elt F) → (⟨S4x4096x1, .f32⟩ : BufTy).Contents (Elt F)),
    StableHlo.nullary main_c (constantI S_ 32 0#32),
    StableHlo.TRef.nullary main_call0.cst (constant S_ .f32 0x00000000#32),
    StableHlo.TRef.binary (.of main_v3 : StableHlo.TRef sig ⟨S4x4096x1024, .f32⟩) main_call0.cst main_call0.v0 (fun x v => Host.reduceAdd x v reducesTo_S4x4096x1024_S4x4096_d2 h_S_),
    StableHlo.TRef.unary main_call0.v0 main_call0.v1 (broadcastInDim S4x4096x1 ![0, 1] bcast_S4x4096_S4x4096x1_0_1),
    StableHlo.TRef.nullary main_call0.cst_0 (constant S_ .f32 0x44800000#32),
    StableHlo.TRef.unary main_call0.cst_0 main_call0.v2 (broadcastInDim S4x4096x1 ![] bcast_S_S4x4096x1),
    StableHlo.TRef.binary main_call0.v1 main_call0.v2 main_call0.v3 Host.divf,
    StableHlo.TRef.unary main_call0.v3 main_call0.v4 (broadcastInDim S4x4096x1024 ![0, 1, 2] bcast_S4x4096x1_S4x4096x1024_0_1_2),
    StableHlo.TRef.binary (.of main_v3 : StableHlo.TRef sig ⟨S4x4096x1024, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x4096x1024_S4x4096_d2 h_S_),
    StableHlo.TRef.unary main_call0.v9 main_call0.v10 (broadcastInDim S4x4096x1 ![0, 1] bcast_S4x4096_S4x4096x1_0_1),
    StableHlo.TRef.unary main_call0.v8 main_call0.v11 (broadcastInDim S4x4096x1 ![] bcast_S_S4x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x4096x1 ![] bcast_S_S4x4096x1),
    StableHlo.TRef.ternary main_call0.v13 main_call0.v12 main_call0.call0.v1 main_call0.call0.v2 (fun p a b => select (broadcastInDim S4x4096x1 ![] bcast_S_S4x4096x1 p) a b),
    StableHlo.unary main_v7 main_v9 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    StableHlo.binary main_v3 main_v9 main_v10 (subf : (⟨S4x4096x1024, .f32⟩ : BufTy).Contents (Elt F) → (⟨S4x4096x1024, .f32⟩ : BufTy).Contents (Elt F) → (⟨S4x4096x1024, .f32⟩ : BufTy).Contents (Elt F)),
    StableHlo.nullary main_cst_1 (constant S_ .f32 0x3727C5AC#32),
    StableHlo.unary main_cst_1 main_v11 (broadcastInDim S4x4096x1 ![] bcast_S_S4x4096x1 : (⟨S_, .f32⟩ : BufTy).Contents (Elt F) → (⟨S4x4096x1, .f32⟩ : BufTy).Contents (Elt F)),
    StableHlo.binary main_v8 main_v11 main_v12 (addf : (⟨S4x4096x1, .f32⟩ : BufTy).Contents (Elt F) → (⟨S4x4096x1, .f32⟩ : BufTy).Contents (Elt F) → (⟨S4x4096x1, .f32⟩ : BufTy).Contents (Elt F)),
    StableHlo.unary main_v12 main_v13 (Host.rsqrt : (⟨S4x4096x1, .f32⟩ : BufTy).Contents (Elt F) → (⟨S4x4096x1, .f32⟩ : BufTy).Contents (Elt F)),
    StableHlo.unary main_v13 main_v14 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    StableHlo.binary main_v10 main_v14 main_v15 (mulf : (⟨S4x4096x1024, .f32⟩ : BufTy).Contents (Elt F) → (⟨S4x4096x1024, .f32⟩ : BufTy).Contents (Elt F) → (⟨S4x4096x1024, .f32⟩ : BufTy).Contents (Elt F)),
    StableHlo.unary main_arg3 main_v16 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    StableHlo.reshape main_v16 main_v17 rfl shapeCasts_S1x1024x1024_S1024x1024,
    StableHlo.binary main_v15 main_v17 main_v18 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v19 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v19 main_v20 rfl shapeCasts_S1x1024_S1024,
    StableHlo.unary main_v20 main_v21 (broadcastInDim S1x1x1024 ![2] bcast_S1024_S1x1x1024_2 : (⟨S1024, .f32⟩ : BufTy).Contents (Elt F) → (⟨S1x1x1024, .f32⟩ : BufTy).Contents (Elt F)),
    StableHlo.unary main_v21 main_v22 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v18 main_v22 main_v23 (addf : (⟨S4x4096x1024, .f32⟩ : BufTy).Contents (Elt F) → (⟨S4x4096x1024, .f32⟩ : BufTy).Contents (Elt F) → (⟨S4x4096x1024, .f32⟩ : BufTy).Contents (Elt F)),
    StableHlo.TRef.unary (.of main_v23 : StableHlo.TRef sig ⟨S4x4096x1024, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S4x4096x1024 ![] bcast_S_S4x4096x1024),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S4x4096x1024 ![] bcast_S_S4x4096x1024),
    StableHlo.TRef.binary main_call1.v4 main_call1.v3 main_call1.v5 Host.divf,
    StableHlo.TRef.binary (.of main_v23 : StableHlo.TRef sig ⟨S4x4096x1024, .f32⟩) main_call1.v5 main_call1.v6 mulf,
    StableHlo.unary main_arg3 main_v25 ((extractStridedSlice S1x1024x1024 ![1, 0, 0] · slices_S4x1024x1024_S1x1024x1024_1_0_0) : (⟨S4x1024x1024, .f32⟩ : BufTy).Contents (Elt F) → (⟨S1x1024x1024, .f32⟩ : BufTy).Contents (Elt F)),
    StableHlo.reshape main_v25 main_v26 rfl shapeCasts_S1x1024x1024_S1024x1024,
    StableHlo.binary main_v24 main_v26 main_v27 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v28 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v28 main_v29 rfl shapeCasts_S1x1024_S1024,
    StableHlo.unary main_v29 main_v30 (broadcastInDim S1x1x1024 ![2] bcast_S1024_S1x1x1024_2 : (⟨S1024, .f32⟩ : BufTy).Contents (Elt F) → (⟨S1x1x1024, .f32⟩ : BufTy).Contents (Elt F)),
    StableHlo.unary main_v30 main_v31 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v27 main_v31 main_v32 (addf : (⟨S4x4096x1024, .f32⟩ : BufTy).Contents (Elt F) → (⟨S4x4096x1024, .f32⟩ : BufTy).Contents (Elt F) → (⟨S4x4096x1024, .f32⟩ : BufTy).Contents (Elt F)),
    StableHlo.TRef.unary (.of main_v32 : StableHlo.TRef sig ⟨S4x4096x1024, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S4x4096x1024 ![] bcast_S_S4x4096x1024),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S4x4096x1024 ![] bcast_S_S4x4096x1024),
    StableHlo.TRef.binary main_call2.v4 main_call2.v3 main_call2.v5 Host.divf,
    StableHlo.TRef.binary (.of main_v32 : StableHlo.TRef sig ⟨S4x4096x1024, .f32⟩) main_call2.v5 main_call2.v6 mulf,
    StableHlo.unary main_arg3 main_v34 ((extractStridedSlice S1x1024x1024 ![2, 0, 0] · slices_S4x1024x1024_S1x1024x1024_2_0_0) : (⟨S4x1024x1024, .f32⟩ : BufTy).Contents (Elt F) → (⟨S1x1024x1024, .f32⟩ : BufTy).Contents (Elt F)),
    StableHlo.reshape main_v34 main_v35 rfl shapeCasts_S1x1024x1024_S1024x1024,
    StableHlo.binary main_v33 main_v35 main_v36 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v37 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v37 main_v38 rfl shapeCasts_S1x1024_S1024,
    StableHlo.unary main_v38 main_v39 (broadcastInDim S1x1x1024 ![2] bcast_S1024_S1x1x1024_2 : (⟨S1024, .f32⟩ : BufTy).Contents (Elt F) → (⟨S1x1x1024, .f32⟩ : BufTy).Contents (Elt F)),
    StableHlo.unary main_v39 main_v40 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v36 main_v40 main_v41 (addf : (⟨S4x4096x1024, .f32⟩ : BufTy).Contents (Elt F) → (⟨S4x4096x1024, .f32⟩ : BufTy).Contents (Elt F) → (⟨S4x4096x1024, .f32⟩ : BufTy).Contents (Elt F)),
    StableHlo.TRef.unary (.of main_v41 : StableHlo.TRef sig ⟨S4x4096x1024, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S4x4096x1024 ![] bcast_S_S4x4096x1024),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S4x4096x1024 ![] bcast_S_S4x4096x1024),
    StableHlo.TRef.binary main_call3.v4 main_call3.v3 main_call3.v5 Host.divf,
    StableHlo.TRef.binary (.of main_v41 : StableHlo.TRef sig ⟨S4x4096x1024, .f32⟩) main_call3.v5 main_call3.v6 mulf,
    StableHlo.unary main_arg3 main_v43 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    StableHlo.reshape main_v43 main_v44 rfl shapeCasts_S1x1024x1024_S1024x1024,
    StableHlo.binary main_v42 main_v44 main_v45 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v46 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v46 main_v47 rfl shapeCasts_S1x1024_S1024,
    StableHlo.unary main_v47 main_v48 (broadcastInDim S1x1x1024 ![2] bcast_S1024_S1x1x1024_2 : (⟨S1024, .f32⟩ : BufTy).Contents (Elt F) → (⟨S1x1x1024, .f32⟩ : BufTy).Contents (Elt F)),
    StableHlo.unary main_v48 main_v49 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v45 main_v49 main_v50 (addf : (⟨S4x4096x1024, .f32⟩ : BufTy).Contents (Elt F) → (⟨S4x4096x1024, .f32⟩ : BufTy).Contents (Elt F) → (⟨S4x4096x1024, .f32⟩ : BufTy).Contents (Elt F)),
    StableHlo.binary main_v15 main_v15 main_v51 (subf : (⟨S4x4096x1024, .f32⟩ : BufTy).Contents (Elt F) → (⟨S4x4096x1024, .f32⟩ : BufTy).Contents (Elt F) → (⟨S4x4096x1024, .f32⟩ : BufTy).Contents (Elt F)),
    StableHlo.binary main_v50 main_v51 main_v52 (addf : (⟨S4x4096x1024, .f32⟩ : BufTy).Contents (Elt F) → (⟨S4x4096x1024, .f32⟩ : BufTy).Contents (Elt F) → (⟨S4x4096x1024, .f32⟩ : BufTy).Contents (Elt F)),
    StableHlo.binary main_v52 main_arg5 main_v53 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg6 main_v54 (broadcastInDim S1x1x1024 ![2] bcast_S1024_S1x1x1024_2 : (⟨S1024, .f32⟩ : BufTy).Contents (Elt F) → (⟨S1x1x1024, .f32⟩ : BufTy).Contents (Elt F)),
    StableHlo.unary main_v54 main_v55 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v53 main_v55 main_v56 (addf : (⟨S4x4096x1024, .f32⟩ : BufTy).Contents (Elt F) → (⟨S4x4096x1024, .f32⟩ : BufTy).Contents (Elt F) → (⟨S4x4096x1024, .f32⟩ : BufTy).Contents (Elt F)) ]

/-- The projection q = x · Wq + bq and its row means (statements 1 … 11). -/
abbrev segA : List (HloOp τ sig (Elt F)) :=
  [ StableHlo.binary main_arg0 main_arg1 main_v0 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg2 main_v1 (broadcastInDim S1x1x1024 ![2] bcast_S1024_S1x1x1024_2 : (⟨S1024, .f32⟩ : BufTy).Contents (Elt F) → (⟨S1x1x1024, .f32⟩ : BufTy).Contents (Elt F)),
    StableHlo.unary main_v1 main_v2 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v0 main_v2 main_v3 (addf : (⟨S4x4096x1024, .f32⟩ : BufTy).Contents (Elt F) → (⟨S4x4096x1024, .f32⟩ : BufTy).Contents (Elt F) → (⟨S4x4096x1024, .f32⟩ : BufTy).Contents (Elt F)),
    StableHlo.nullary main_cst (constant S_ .f32 0x00000000#32),
    StableHlo.binary main_v3 main_cst main_v4 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    StableHlo.unary main_v4 main_v5 (broadcastInDim S4x4096x1 ![0, 1] bcast_S4x4096_S4x4096x1_0_1 : (⟨S4x4096, .f32⟩ : BufTy).Contents (Elt F) → (⟨S4x4096x1, .f32⟩ : BufTy).Contents (Elt F)),
    StableHlo.nullary main_cst_0 (constant S_ .f32 0x44800000#32),
    StableHlo.unary main_cst_0 main_v6 (broadcastInDim S4x4096x1 ![] bcast_S_S4x4096x1 : (⟨S_, .f32⟩ : BufTy).Contents (Elt F) → (⟨S4x4096x1, .f32⟩ : BufTy).Contents (Elt F)),
    StableHlo.binary main_v5 main_v6 main_v7 (Host.divf : (⟨S4x4096x1, .f32⟩ : BufTy).Contents (Elt F) → (⟨S4x4096x1, .f32⟩ : BufTy).Contents (Elt F) → (⟨S4x4096x1, .f32⟩ : BufTy).Contents (Elt F)),
    StableHlo.nullary main_c (constantI S_ 32 0#32) ]

/-- The row variance of q: the call's twenty operations and the three of the helper it calls (statement 12). -/
abbrev segB : List (HloOp τ sig (Elt F)) :=
  [ StableHlo.TRef.nullary main_call0.cst (constant S_ .f32 0x00000000#32),
    StableHlo.TRef.binary (.of main_v3 : StableHlo.TRef sig ⟨S4x4096x1024, .f32⟩) main_call0.cst main_call0.v0 (fun x v => Host.reduceAdd x v reducesTo_S4x4096x1024_S4x4096_d2 h_S_),
    StableHlo.TRef.unary main_call0.v0 main_call0.v1 (broadcastInDim S4x4096x1 ![0, 1] bcast_S4x4096_S4x4096x1_0_1),
    StableHlo.TRef.nullary main_call0.cst_0 (constant S_ .f32 0x44800000#32),
    StableHlo.TRef.unary main_call0.cst_0 main_call0.v2 (broadcastInDim S4x4096x1 ![] bcast_S_S4x4096x1),
    StableHlo.TRef.binary main_call0.v1 main_call0.v2 main_call0.v3 Host.divf,
    StableHlo.TRef.unary main_call0.v3 main_call0.v4 (broadcastInDim S4x4096x1024 ![0, 1, 2] bcast_S4x4096x1_S4x4096x1024_0_1_2),
    StableHlo.TRef.binary (.of main_v3 : StableHlo.TRef sig ⟨S4x4096x1024, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x4096x1024_S4x4096_d2 h_S_),
    StableHlo.TRef.unary main_call0.v9 main_call0.v10 (broadcastInDim S4x4096x1 ![0, 1] bcast_S4x4096_S4x4096x1_0_1),
    StableHlo.TRef.unary main_call0.v8 main_call0.v11 (broadcastInDim S4x4096x1 ![] bcast_S_S4x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x4096x1 ![] bcast_S_S4x4096x1),
    StableHlo.TRef.ternary main_call0.v13 main_call0.v12 main_call0.call0.v1 main_call0.call0.v2 (fun p a b => select (broadcastInDim S4x4096x1 ![] bcast_S_S4x4096x1 p) a b) ]

/-- The normalised rows and the first dense layer (statements 13 … 28). -/
abbrev segC : List (HloOp τ sig (Elt F)) :=
  [ StableHlo.unary main_v7 main_v9 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    StableHlo.binary main_v3 main_v9 main_v10 (subf : (⟨S4x4096x1024, .f32⟩ : BufTy).Contents (Elt F) → (⟨S4x4096x1024, .f32⟩ : BufTy).Contents (Elt F) → (⟨S4x4096x1024, .f32⟩ : BufTy).Contents (Elt F)),
    StableHlo.nullary main_cst_1 (constant S_ .f32 0x3727C5AC#32),
    StableHlo.unary main_cst_1 main_v11 (broadcastInDim S4x4096x1 ![] bcast_S_S4x4096x1 : (⟨S_, .f32⟩ : BufTy).Contents (Elt F) → (⟨S4x4096x1, .f32⟩ : BufTy).Contents (Elt F)),
    StableHlo.binary main_v8 main_v11 main_v12 (addf : (⟨S4x4096x1, .f32⟩ : BufTy).Contents (Elt F) → (⟨S4x4096x1, .f32⟩ : BufTy).Contents (Elt F) → (⟨S4x4096x1, .f32⟩ : BufTy).Contents (Elt F)),
    StableHlo.unary main_v12 main_v13 (Host.rsqrt : (⟨S4x4096x1, .f32⟩ : BufTy).Contents (Elt F) → (⟨S4x4096x1, .f32⟩ : BufTy).Contents (Elt F)),
    StableHlo.unary main_v13 main_v14 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    StableHlo.binary main_v10 main_v14 main_v15 (mulf : (⟨S4x4096x1024, .f32⟩ : BufTy).Contents (Elt F) → (⟨S4x4096x1024, .f32⟩ : BufTy).Contents (Elt F) → (⟨S4x4096x1024, .f32⟩ : BufTy).Contents (Elt F)),
    StableHlo.unary main_arg3 main_v16 ((extractStridedSlice S1x1024x1024 ![0, 0, 0] · slices_S4x1024x1024_S1x1024x1024_0_0_0) : (⟨S4x1024x1024, .f32⟩ : BufTy).Contents (Elt F) → (⟨S1x1024x1024, .f32⟩ : BufTy).Contents (Elt F)),
    StableHlo.reshape main_v16 main_v17 rfl shapeCasts_S1x1024x1024_S1024x1024,
    StableHlo.binary main_v15 main_v17 main_v18 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v19 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v19 main_v20 rfl shapeCasts_S1x1024_S1024,
    StableHlo.unary main_v20 main_v21 (broadcastInDim S1x1x1024 ![2] bcast_S1024_S1x1x1024_2 : (⟨S1024, .f32⟩ : BufTy).Contents (Elt F) → (⟨S1x1x1024, .f32⟩ : BufTy).Contents (Elt F)),
    StableHlo.unary main_v21 main_v22 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v18 main_v22 main_v23 (addf : (⟨S4x4096x1024, .f32⟩ : BufTy).Contents (Elt F) → (⟨S4x4096x1024, .f32⟩ : BufTy).Contents (Elt F) → (⟨S4x4096x1024, .f32⟩ : BufTy).Contents (Elt F)) ]

/-- The first gate and the second dense layer (statements 29 … 37). -/
abbrev segD : List (HloOp τ sig (Elt F)) :=
  [ StableHlo.TRef.unary (.of main_v23 : StableHlo.TRef sig ⟨S4x4096x1024, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S4x4096x1024 ![] bcast_S_S4x4096x1024),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S4x4096x1024 ![] bcast_S_S4x4096x1024),
    StableHlo.TRef.binary main_call1.v4 main_call1.v3 main_call1.v5 Host.divf,
    StableHlo.TRef.binary (.of main_v23 : StableHlo.TRef sig ⟨S4x4096x1024, .f32⟩) main_call1.v5 main_call1.v6 mulf,
    StableHlo.unary main_arg3 main_v25 ((extractStridedSlice S1x1024x1024 ![1, 0, 0] · slices_S4x1024x1024_S1x1024x1024_1_0_0) : (⟨S4x1024x1024, .f32⟩ : BufTy).Contents (Elt F) → (⟨S1x1024x1024, .f32⟩ : BufTy).Contents (Elt F)),
    StableHlo.reshape main_v25 main_v26 rfl shapeCasts_S1x1024x1024_S1024x1024,
    StableHlo.binary main_v24 main_v26 main_v27 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v28 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v28 main_v29 rfl shapeCasts_S1x1024_S1024,
    StableHlo.unary main_v29 main_v30 (broadcastInDim S1x1x1024 ![2] bcast_S1024_S1x1x1024_2 : (⟨S1024, .f32⟩ : BufTy).Contents (Elt F) → (⟨S1x1x1024, .f32⟩ : BufTy).Contents (Elt F)),
    StableHlo.unary main_v30 main_v31 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v27 main_v31 main_v32 (addf : (⟨S4x4096x1024, .f32⟩ : BufTy).Contents (Elt F) → (⟨S4x4096x1024, .f32⟩ : BufTy).Contents (Elt F) → (⟨S4x4096x1024, .f32⟩ : BufTy).Contents (Elt F)) ]

/-- The second gate and the third dense layer (statements 38 … 46). -/
abbrev segE : List (HloOp τ sig (Elt F)) :=
  [ StableHlo.TRef.unary (.of main_v32 : StableHlo.TRef sig ⟨S4x4096x1024, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S4x4096x1024 ![] bcast_S_S4x4096x1024),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S4x4096x1024 ![] bcast_S_S4x4096x1024),
    StableHlo.TRef.binary main_call2.v4 main_call2.v3 main_call2.v5 Host.divf,
    StableHlo.TRef.binary (.of main_v32 : StableHlo.TRef sig ⟨S4x4096x1024, .f32⟩) main_call2.v5 main_call2.v6 mulf,
    StableHlo.unary main_arg3 main_v34 ((extractStridedSlice S1x1024x1024 ![2, 0, 0] · slices_S4x1024x1024_S1x1024x1024_2_0_0) : (⟨S4x1024x1024, .f32⟩ : BufTy).Contents (Elt F) → (⟨S1x1024x1024, .f32⟩ : BufTy).Contents (Elt F)),
    StableHlo.reshape main_v34 main_v35 rfl shapeCasts_S1x1024x1024_S1024x1024,
    StableHlo.binary main_v33 main_v35 main_v36 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v37 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v37 main_v38 rfl shapeCasts_S1x1024_S1024,
    StableHlo.unary main_v38 main_v39 (broadcastInDim S1x1x1024 ![2] bcast_S1024_S1x1x1024_2 : (⟨S1024, .f32⟩ : BufTy).Contents (Elt F) → (⟨S1x1x1024, .f32⟩ : BufTy).Contents (Elt F)),
    StableHlo.unary main_v39 main_v40 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v36 main_v40 main_v41 (addf : (⟨S4x4096x1024, .f32⟩ : BufTy).Contents (Elt F) → (⟨S4x4096x1024, .f32⟩ : BufTy).Contents (Elt F) → (⟨S4x4096x1024, .f32⟩ : BufTy).Contents (Elt F)) ]

/-- The third gate, the fourth dense layer, the added difference and the output layer (statements 47 … 61). -/
abbrev segF : List (HloOp τ sig (Elt F)) :=
  [ StableHlo.TRef.unary (.of main_v41 : StableHlo.TRef sig ⟨S4x4096x1024, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S4x4096x1024 ![] bcast_S_S4x4096x1024),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S4x4096x1024 ![] bcast_S_S4x4096x1024),
    StableHlo.TRef.binary main_call3.v4 main_call3.v3 main_call3.v5 Host.divf,
    StableHlo.TRef.binary (.of main_v41 : StableHlo.TRef sig ⟨S4x4096x1024, .f32⟩) main_call3.v5 main_call3.v6 mulf,
    StableHlo.unary main_arg3 main_v43 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    StableHlo.reshape main_v43 main_v44 rfl shapeCasts_S1x1024x1024_S1024x1024,
    StableHlo.binary main_v42 main_v44 main_v45 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg4 main_v46 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v46 main_v47 rfl shapeCasts_S1x1024_S1024,
    StableHlo.unary main_v47 main_v48 (broadcastInDim S1x1x1024 ![2] bcast_S1024_S1x1x1024_2 : (⟨S1024, .f32⟩ : BufTy).Contents (Elt F) → (⟨S1x1x1024, .f32⟩ : BufTy).Contents (Elt F)),
    StableHlo.unary main_v48 main_v49 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v45 main_v49 main_v50 (addf : (⟨S4x4096x1024, .f32⟩ : BufTy).Contents (Elt F) → (⟨S4x4096x1024, .f32⟩ : BufTy).Contents (Elt F) → (⟨S4x4096x1024, .f32⟩ : BufTy).Contents (Elt F)),
    StableHlo.binary main_v15 main_v15 main_v51 (subf : (⟨S4x4096x1024, .f32⟩ : BufTy).Contents (Elt F) → (⟨S4x4096x1024, .f32⟩ : BufTy).Contents (Elt F) → (⟨S4x4096x1024, .f32⟩ : BufTy).Contents (Elt F)),
    StableHlo.binary main_v50 main_v51 main_v52 (addf : (⟨S4x4096x1024, .f32⟩ : BufTy).Contents (Elt F) → (⟨S4x4096x1024, .f32⟩ : BufTy).Contents (Elt F) → (⟨S4x4096x1024, .f32⟩ : BufTy).Contents (Elt F)),
    StableHlo.binary main_v52 main_arg5 main_v53 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    StableHlo.unary main_arg6 main_v54 (broadcastInDim S1x1x1024 ![2] bcast_S1024_S1x1x1024_2 : (⟨S1024, .f32⟩ : BufTy).Contents (Elt F) → (⟨S1x1x1024, .f32⟩ : BufTy).Contents (Elt F)),
    StableHlo.unary main_v54 main_v55 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    StableHlo.binary main_v53 main_v55 main_v56 (addf : (⟨S4x4096x1024, .f32⟩ : BufTy).Contents (Elt F) → (⟨S4x4096x1024, .f32⟩ : BufTy).Contents (Elt F) → (⟨S4x4096x1024, .f32⟩ : BufTy).Contents (Elt F)) ]

/-- The line is its six stretches one after the other. -/
theorem ops_eq_segs : (ops : List (HloOp τ sig (Elt F))) = segA ++ (segB ++ (segC ++ (segD ++ (segE ++ segF)))) := rfl

-- one rewrite per statement under the chain of binds: the default depth ends near sixty statements
set_option maxRecDepth 8192 in
set_option maxHeartbeats 4000000 in
/-- The program is that line: the functions' bodies unfolded at their calls, both sides are one chain of
    operation steps once the sequencing is reassociated. -/
theorem main_eq (c : Dev nD) : main (F := F) c = seq ops := by
  simp only [main, main_part0, main_part1, fn_var.body, fn_where.body, fn_silu.body, seq, bind_assoc, pure_bind]

/-- No buffer of this program is scoped: every one holds a tensor value for the whole run. -/
theorem scopedRefs_eq : (Finset.univ.filter fun b : Ref sig .tc => b.isScoped) = ∅ := by decide
/-- The program has no semaphore. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., binary_bufs_sub .., unary_bufs_sub .., unary_bufs_sub .., binary_bufs_sub ..⟩

set_option maxRecDepth 8192 in
/-- For any float values, from any memory with zero counters: every weakly fair execution of the program
    terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two lines one after the other is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The fold over the whole line, stretch by stretch. -/
theorem after_ops (V : Valuation τ sig (Elt F)) :
    after ops V = after segF (after segE (after segD (after segC (after segB (after segA V))))) := by
  rw [ops_eq_segs, after_app, after_app, after_app, after_app, after_app]

end Cert.ReferenceIdeal.RefRun

end
-- ==== Proof.RefTerm.lean ====
/-
  The reference program's result as one pure term of its seven arguments, at the ideal instance.

  Each definition below is one stage of the program: the projection q = x · Wq + bq, the row mean,
  the row variance (centred squares summed and divided by the row length minus a converted integer
  zero, guarded by a comparison), the normalised rows, the gate x ↦ x · (1 / (1 + e^(−x))), the four
  dense layers over the slices of the stacked weights, and the output layer. The stages apply the
  same array operations in the same order and argument order as the program's statements, so the
  program's final value is this term by unfolding.
-/
import proofs.«108835_j47493748359435_2_alg».proof.ReferenceIdeal
import Idealize.ShloMosaic.PureOps.Ideal

noncomputable section

namespace Cert.ReferenceIdeal.RefTerm

open Idealize.ShloMosaic
open Cert.ReferenceIdeal Cert.ReferenceIdeal.Facts₀ Cert.ReferenceIdeal.Facts

variable [Cert.ReferenceIdeal.Facts]

/-- The bias row b : [1024] spread over [4, 4096, 1024] (through [1, 1, 1024]). -/
def biasOf (b : FVec Ideal S1024 .f32) : FVec Ideal S4x4096x1024 .f32 :=
  broadcastInDim S4x4096x1024 ![0, 1, 2] bcast_S1x1x1024_S4x4096x1024_0_1_2
    (broadcastInDim S1x1x1024 ![2] bcast_S1024_S1x1x1024_2 b)

/-- A dense layer on every row: h · W + b. -/
def denseOf (h : FVec Ideal S4x4096x1024 .f32) (w : FVec Ideal S1024x1024 .f32) (b : FVec Ideal S1024 .f32) :
    FVec Ideal S4x4096x1024 .f32 :=
  addf (Host.dotGeneral dot_S4x4096x1024_S1024x1024_S4x4096x1024_2_0_01_1_n_n none h w) (biasOf b)

/-- q = x · Wq + bq. -/
def qOf (x : FVec Ideal S4x4096x1024 .f32) (wq : FVec Ideal S1024x1024 .f32) (bq : FVec Ideal S1024 .f32) :
    FVec Ideal S4x4096x1024 .f32 :=
  denseOf x wq bq

/-- The sum of every row, kept as a last axis of length one. -/
def rowSumOf (q : FVec Ideal S4x4096x1024 .f32) : FVec Ideal S4x4096x1 .f32 :=
  broadcastInDim S4x4096x1 ![0, 1] bcast_S4x4096_S4x4096x1_0_1
    (Host.reduceAdd q (constant (F := Ideal) S_ .f32 0x00000000#32) reducesTo_S4x4096x1024_S4x4096_d2 h_S_)

/-- The mean of every row: its sum divided by the constant 1024. -/
def meanOf (q : FVec Ideal S4x4096x1024 .f32) : FVec Ideal S4x4096x1 .f32 :=
  Host.divf (rowSumOf q)
    (broadcastInDim S4x4096x1 ![] bcast_S_S4x4096x1 (constant (F := Ideal) S_ .f32 0x44800000#32))

/-- The centred rows q − mean. -/
def centredOf (q : FVec Ideal S4x4096x1024 .f32) : FVec Ideal S4x4096x1024 .f32 :=
  subf q (broadcastInDim S4x4096x1024 ![0, 1, 2] bcast_S4x4096x1_S4x4096x1024_0_1_2 (meanOf q))

/-- The divisor of the variance: 1024 minus the converted integer 0. -/
def divisorOf : FVec Ideal S_ .f32 :=
  subf (constant (F := Ideal) S_ .f32 0x44800000#32) (sitofp (F := Ideal) .f32 (constantI S_ 32 0#32))

/-- The variance of every row: the centred squares summed, divided by the divisor, and kept where the
    divisor is positive (a not-a-number constant elsewhere). -/
def varOf (q : FVec Ideal S4x4096x1024 .f32) : FVec Ideal S4x4096x1 .f32 :=
  select
    (broadcastInDim S4x4096x1 ![] bcast_S_S4x4096x1
      (cmpf .ogt divisorOf (constant (F := Ideal) S_ .f32 0x00000000#32)))
    (Host.divf
      (broadcastInDim S4x4096x1 ![0, 1] bcast_S4x4096_S4x4096x1_0_1
        (Host.reduceAdd (mulf (centredOf q) (centredOf q)) (constant (F := Ideal) S_ .f32 0x00000000#32)
          reducesTo_S4x4096x1024_S4x4096_d2 h_S_))
      (broadcastInDim S4x4096x1 ![] bcast_S_S4x4096x1 divisorOf))
    (broadcastInDim S4x4096x1 ![] bcast_S_S4x4096x1
      (id (constant (F := Ideal) S_ .f32 0x7FC00000#32)))

/-- The normalised rows (q − mean) · rsqrt (var + e). -/
def normOf (q : FVec Ideal S4x4096x1024 .f32) : FVec Ideal S4x4096x1024 .f32 :=
  mulf (centredOf q)
    (broadcastInDim S4x4096x1024 ![0, 1, 2] bcast_S4x4096x1_S4x4096x1024_0_1_2
      (Host.rsqrt (addf (varOf q)
        (broadcastInDim S4x4096x1 ![] bcast_S_S4x4096x1 (constant (F := Ideal) S_ .f32 0x3727C5AC#32)))))

/-- The gate h · (1 / (1 + e^(−h))), entry by entry. -/
def siluOf (h : FVec Ideal S4x4096x1024 .f32) : FVec Ideal S4x4096x1024 .f32 :=
  mulf h
    (Host.divf
      (broadcastInDim S4x4096x1024 ![] bcast_S_S4x4096x1024 (constant (F := Ideal) S_ .f32 0x3F800000#32))
      (addf
        (broadcastInDim S4x4096x1024 ![] bcast_S_S4x4096x1024 (constant (F := Ideal) S_ .f32 0x3F800000#32))
        (Host.exp (Host.negf h))))

/-- Layer 0: h · W₀ + b₀, the tables read out of the stacks by a slice and a reshape. -/
def layer0Of (h : FVec Ideal S4x4096x1024 .f32) (mw : FVec Ideal S4x1024x1024 .f32) (mb : FVec Ideal S4x1024 .f32) :
    FVec Ideal S4x4096x1024 .f32 :=
  denseOf h
    (shapeCast S1024x1024 (extractStridedSlice S1x1024x1024 ![0, 0, 0] mw slices_S4x1024x1024_S1x1024x1024_0_0_0)
      shapeCasts_S1x1024x1024_S1024x1024)
    (shapeCast S1024 (extractStridedSlice S1x1024 ![0, 0] mb slices_S4x1024_S1x1024_0_0) shapeCasts_S1x1024_S1024)

/-- Layer 1. -/
def layer1Of (h : FVec Ideal S4x4096x1024 .f32) (mw : FVec Ideal S4x1024x1024 .f32) (mb : FVec Ideal S4x1024 .f32) :
    FVec Ideal S4x4096x1024 .f32 :=
  denseOf h
    (shapeCast S1024x1024 (extractStridedSlice S1x1024x1024 ![1, 0, 0] mw slices_S4x1024x1024_S1x1024x1024_1_0_0)
      shapeCasts_S1x1024x1024_S1024x1024)
    (shapeCast S1024 (extractStridedSlice S1x1024 ![1, 0] mb slices_S4x1024_S1x1024_1_0) shapeCasts_S1x1024_S1024)

/-- Layer 2. -/
def layer2Of (h : FVec Ideal S4x4096x1024 .f32) (mw : FVec Ideal S4x1024x1024 .f32) (mb : FVec Ideal S4x1024 .f32) :
    FVec Ideal S4x4096x1024 .f32 :=
  denseOf h
    (shapeCast S1024x1024 (extractStridedSlice S1x1024x1024 ![2, 0, 0] mw slices_S4x1024x1024_S1x1024x1024_2_0_0)
      shapeCasts_S1x1024x1024_S1024x1024)
    (shapeCast S1024 (extractStridedSlice S1x1024 ![2, 0] mb slices_S4x1024_S1x1024_2_0) shapeCasts_S1x1024_S1024)

/-- Layer 3. -/
def layer3Of (h : FVec Ideal S4x4096x1024 .f32) (mw : FVec Ideal S4x1024x1024 .f32) (mb : FVec Ideal S4x1024 .f32) :
    FVec Ideal S4x4096x1024 .f32 :=
  denseOf h
    (shapeCast S1024x1024 (extractStridedSlice S1x1024x1024 ![3, 0, 0] mw slices_S4x1024x1024_S1x1024x1024_3_0_0)
      shapeCasts_S1x1024x1024_S1024x1024)
    (shapeCast S1024 (extractStridedSlice S1x1024 ![3, 0] mb slices_S4x1024_S1x1024_3_0) shapeCasts_S1x1024_S1024)

/-- The four layers on the normalised rows, the first three gated. -/
def mlpOf (qn : FVec Ideal S4x4096x1024 .f32) (mw : FVec Ideal S4x1024x1024 .f32) (mb : FVec Ideal S4x1024 .f32) :
    FVec Ideal S4x4096x1024 .f32 :=
  layer3Of (siluOf (layer2Of (siluOf (layer1Of (siluOf (layer0Of qn mw mb)) mw mb)) mw mb)) mw mb

/-- The whole program: the output layer on mlp (qn) + (qn − qn). -/
def refTerm (x : FVec Ideal S4x4096x1024 .f32) (wq : FVec Ideal S1024x1024 .f32) (bq : FVec Ideal S1024 .f32)
    (mw : FVec Ideal S4x1024x1024 .f32) (mb : FVec Ideal S4x1024 .f32) (wo : FVec Ideal S1024x1024 .f32)
    (bo : FVec Ideal S1024 .f32) : FVec Ideal S4x4096x1024 .f32 :=
  denseOf (addf (mlpOf (normOf (qOf x wq bq)) mw mb) (subf (normOf (qOf x wq bq)) (normOf (qOf x wq bq)))) wo bo

end Cert.ReferenceIdeal.RefTerm

end
-- ==== Proof.RefRun.lean ====
/-
  The value the reference program leaves in its result buffer.

  The fold of the 107 operations is computed stretch by stretch. For each stretch, and for ANY contents V
  of the buffers before it, the contents of the few buffers later stretches read are given as array terms
  of V at the buffers the stretch reads, and the buffers it does not write are as V had them. Chaining
  the six stretches gives the result buffer as the staged term `refTerm` of the seven arguments, and the
  arguments themselves unchanged.
-/
import proofs.«108835_j47493748359435_2_alg».proof.Proof.RefOps
import proofs.«108835_j47493748359435_2_alg».proof.Proof.RefTerm

noncomputable section

namespace Cert.ReferenceIdeal.RefRun

open Cert.ReferenceIdeal Cert.ReferenceIdeal.Facts₀ Cert.ReferenceIdeal.Facts Cert.ReferenceIdeal.RefTerm
open Idealize.ShloMosaic Idealize.ShloMosaic.TcCoe Idealize.SL.Sem Idealize.ShloMosaic.StableHlo

variable [Cert.ReferenceIdeal.Facts]

/-- The normalised rows from q, its row means and its row variances given separately:
    (q − mean) · rsqrt (var + e). -/
def normFrom (q : FVec Ideal S4x4096x1024 .f32) (mean var : FVec Ideal S4x4096x1 .f32) : FVec Ideal S4x4096x1024 .f32 :=
  mulf (subf q (broadcastInDim S4x4096x1024 ![0, 1, 2] bcast_S4x4096x1_S4x4096x1024_0_1_2 mean))
    (broadcastInDim S4x4096x1024 ![0, 1, 2] bcast_S4x4096x1_S4x4096x1024_0_1_2
      (Host.rsqrt (addf var
        (broadcastInDim S4x4096x1 ![] bcast_S_S4x4096x1 (constant (F := Ideal) S_ .f32 0x3727C5AC#32)))))

/-- At q's own means and variances it is the normalisation of q. -/
theorem normFrom_eq (q : FVec Ideal S4x4096x1024 .f32) : normFrom q (meanOf q) (varOf q) = normOf q := rfl

/-! ## The buffers a stretch does not write -/

theorem segA_arg0 (V : Valuation τ sig (Elt Ideal)) :
    after (segA (F := Ideal)) V (main_arg0 : DevRef τ sig) = V (main_arg0 : DevRef τ sig) := by
  after_results_simp
theorem segA_arg1 (V : Valuation τ sig (Elt Ideal)) :
    after (segA (F := Ideal)) V (main_arg1 : DevRef τ sig) = V (main_arg1 : DevRef τ sig) := by
  after_results_simp
theorem segA_arg2 (V : Valuation τ sig (Elt Ideal)) :
    after (segA (F := Ideal)) V (main_arg2 : DevRef τ sig) = V (main_arg2 : DevRef τ sig) := by
  after_results_simp
theorem segA_arg3 (V : Valuation τ sig (Elt Ideal)) :
    after (segA (F := Ideal)) V (main_arg3 : DevRef τ sig) = V (main_arg3 : DevRef τ sig) := by
  after_results_simp
theorem segA_arg4 (V : Valuation τ sig (Elt Ideal)) :
    after (segA (F := Ideal)) V (main_arg4 : DevRef τ sig) = V (main_arg4 : DevRef τ sig) := by
  after_results_simp
theorem segA_arg5 (V : Valuation τ sig (Elt Ideal)) :
    after (segA (F := Ideal)) V (main_arg5 : DevRef τ sig) = V (main_arg5 : DevRef τ sig) := by
  after_results_simp
theorem segA_arg6 (V : Valuation τ sig (Elt Ideal)) :
    after (segA (F := Ideal)) V (main_arg6 : DevRef τ sig) = V (main_arg6 : DevRef τ sig) := by
  after_results_simp
theorem segB_arg0 (V : Valuation τ sig (Elt Ideal)) :
    after (segB (F := Ideal)) V (main_arg0 : DevRef τ sig) = V (main_arg0 : DevRef τ sig) := by
  after_results_simp
theorem segB_arg1 (V : Valuation τ sig (Elt Ideal)) :
    after (segB (F := Ideal)) V (main_arg1 : DevRef τ sig) = V (main_arg1 : DevRef τ sig) := by
  after_results_simp
theorem segB_arg2 (V : Valuation τ sig (Elt Ideal)) :
    after (segB (F := Ideal)) V (main_arg2 : DevRef τ sig) = V (main_arg2 : DevRef τ sig) := by
  after_results_simp
theorem segB_arg3 (V : Valuation τ sig (Elt Ideal)) :
    after (segB (F := Ideal)) V (main_arg3 : DevRef τ sig) = V (main_arg3 : DevRef τ sig) := by
  after_results_simp
theorem segB_arg4 (V : Valuation τ sig (Elt Ideal)) :
    after (segB (F := Ideal)) V (main_arg4 : DevRef τ sig) = V (main_arg4 : DevRef τ sig) := by
  after_results_simp
theorem segB_arg5 (V : Valuation τ sig (Elt Ideal)) :
    after (segB (F := Ideal)) V (main_arg5 : DevRef τ sig) = V (main_arg5 : DevRef τ sig) := by
  after_results_simp
theorem segB_arg6 (V : Valuation τ sig (Elt Ideal)) :
    after (segB (F := Ideal)) V (main_arg6 : DevRef τ sig) = V (main_arg6 : DevRef τ sig) := by
  after_results_simp
theorem segB_v3 (V : Valuation τ sig (Elt Ideal)) :
    after (segB (F := Ideal)) V (main_v3 : DevRef τ sig) = V (main_v3 : DevRef τ sig) := by
  after_results_simp
theorem segB_v7 (V : Valuation τ sig (Elt Ideal)) :
    after (segB (F := Ideal)) V (main_v7 : DevRef τ sig) = V (main_v7 : DevRef τ sig) := by
  after_results_simp
theorem segC_arg0 (V : Valuation τ sig (Elt Ideal)) :
    after (segC (F := Ideal)) V (main_arg0 : DevRef τ sig) = V (main_arg0 : DevRef τ sig) := by
  after_results_simp
theorem segC_arg1 (V : Valuation τ sig (Elt Ideal)) :
    after (segC (F := Ideal)) V (main_arg1 : DevRef τ sig) = V (main_arg1 : DevRef τ sig) := by
  after_results_simp
theorem segC_arg2 (V : Valuation τ sig (Elt Ideal)) :
    after (segC (F := Ideal)) V (main_arg2 : DevRef τ sig) = V (main_arg2 : DevRef τ sig) := by
  after_results_simp
theorem segC_arg3 (V : Valuation τ sig (Elt Ideal)) :
    after (segC (F := Ideal)) V (main_arg3 : DevRef τ sig) = V (main_arg3 : DevRef τ sig) := by
  after_results_simp
theorem segC_arg4 (V : Valuation τ sig (Elt Ideal)) :
    after (segC (F := Ideal)) V (main_arg4 : DevRef τ sig) = V (main_arg4 : DevRef τ sig) := by
  after_results_simp
theorem segC_arg5 (V : Valuation τ sig (Elt Ideal)) :
    after (segC (F := Ideal)) V (main_arg5 : DevRef τ sig) = V (main_arg5 : DevRef τ sig) := by
  after_results_simp
theorem segC_arg6 (V : Valuation τ sig (Elt Ideal)) :
    after (segC (F := Ideal)) V (main_arg6 : DevRef τ sig) = V (main_arg6 : DevRef τ sig) := by
  after_results_simp
theorem segD_arg0 (V : Valuation τ sig (Elt Ideal)) :
    after (segD (F := Ideal)) V (main_arg0 : DevRef τ sig) = V (main_arg0 : DevRef τ sig) := by
  after_results_simp
theorem segD_arg1 (V : Valuation τ sig (Elt Ideal)) :
    after (segD (F := Ideal)) V (main_arg1 : DevRef τ sig) = V (main_arg1 : DevRef τ sig) := by
  after_results_simp
theorem segD_arg2 (V : Valuation τ sig (Elt Ideal)) :
    after (segD (F := Ideal)) V (main_arg2 : DevRef τ sig) = V (main_arg2 : DevRef τ sig) := by
  after_results_simp
theorem segD_arg3 (V : Valuation τ sig (Elt Ideal)) :
    after (segD (F := Ideal)) V (main_arg3 : DevRef τ sig) = V (main_arg3 : DevRef τ sig) := by
  after_results_simp
theorem segD_arg4 (V : Valuation τ sig (Elt Ideal)) :
    after (segD (F := Ideal)) V (main_arg4 : DevRef τ sig) = V (main_arg4 : DevRef τ sig) := by
  after_results_simp
theorem segD_arg5 (V : Valuation τ sig (Elt Ideal)) :
    after (segD (F := Ideal)) V (main_arg5 : DevRef τ sig) = V (main_arg5 : DevRef τ sig) := by
  after_results_simp
theorem segD_arg6 (V : Valuation τ sig (Elt Ideal)) :
    after (segD (F := Ideal)) V (main_arg6 : DevRef τ sig) = V (main_arg6 : DevRef τ sig) := by
  after_results_simp
theorem segD_v15 (V : Valuation τ sig (Elt Ideal)) :
    after (segD (F := Ideal)) V (main_v15 : DevRef τ sig) = V (main_v15 : DevRef τ sig) := by
  after_results_simp
theorem segE_arg0 (V : Valuation τ sig (Elt Ideal)) :
    after (segE (F := Ideal)) V (main_arg0 : DevRef τ sig) = V (main_arg0 : DevRef τ sig) := by
  after_results_simp
theorem segE_arg1 (V : Valuation τ sig (Elt Ideal)) :
    after (segE (F := Ideal)) V (main_arg1 : DevRef τ sig) = V (main_arg1 : DevRef τ sig) := by
  after_results_simp
theorem segE_arg2 (V : Valuation τ sig (Elt Ideal)) :
    after (segE (F := Ideal)) V (main_arg2 : DevRef τ sig) = V (main_arg2 : DevRef τ sig) := by
  after_results_simp
theorem segE_arg3 (V : Valuation τ sig (Elt Ideal)) :
    after (segE (F := Ideal)) V (main_arg3 : DevRef τ sig) = V (main_arg3 : DevRef τ sig) := by
  after_results_simp
theorem segE_arg4 (V : Valuation τ sig (Elt Ideal)) :
    after (segE (F := Ideal)) V (main_arg4 : DevRef τ sig) = V (main_arg4 : DevRef τ sig) := by
  after_results_simp
theorem segE_arg5 (V : Valuation τ sig (Elt Ideal)) :
    after (segE (F := Ideal)) V (main_arg5 : DevRef τ sig) = V (main_arg5 : DevRef τ sig) := by
  after_results_simp
theorem segE_arg6 (V : Valuation τ sig (Elt Ideal)) :
    after (segE (F := Ideal)) V (main_arg6 : DevRef τ sig) = V (main_arg6 : DevRef τ sig) := by
  after_results_simp
theorem segE_v15 (V : Valuation τ sig (Elt Ideal)) :
    after (segE (F := Ideal)) V (main_v15 : DevRef τ sig) = V (main_v15 : DevRef τ sig) := by
  after_results_simp
theorem segF_arg0 (V : Valuation τ sig (Elt Ideal)) :
    after (segF (F := Ideal)) V (main_arg0 : DevRef τ sig) = V (main_arg0 : DevRef τ sig) := by
  after_results_simp
theorem segF_arg1 (V : Valuation τ sig (Elt Ideal)) :
    after (segF (F := Ideal)) V (main_arg1 : DevRef τ sig) = V (main_arg1 : DevRef τ sig) := by
  after_results_simp
theorem segF_arg2 (V : Valuation τ sig (Elt Ideal)) :
    after (segF (F := Ideal)) V (main_arg2 : DevRef τ sig) = V (main_arg2 : DevRef τ sig) := by
  after_results_simp
theorem segF_arg3 (V : Valuation τ sig (Elt Ideal)) :
    after (segF (F := Ideal)) V (main_arg3 : DevRef τ sig) = V (main_arg3 : DevRef τ sig) := by
  after_results_simp
theorem segF_arg4 (V : Valuation τ sig (Elt Ideal)) :
    after (segF (F := Ideal)) V (main_arg4 : DevRef τ sig) = V (main_arg4 : DevRef τ sig) := by
  after_results_simp
theorem segF_arg5 (V : Valuation τ sig (Elt Ideal)) :
    after (segF (F := Ideal)) V (main_arg5 : DevRef τ sig) = V (main_arg5 : DevRef τ sig) := by
  after_results_simp
theorem segF_arg6 (V : Valuation τ sig (Elt Ideal)) :
    after (segF (F := Ideal)) V (main_arg6 : DevRef τ sig) = V (main_arg6 : DevRef τ sig) := by
  after_results_simp

/-! ## What each stretch computes -/

/-- The projection. -/
theorem segA_out_v3 (V : Valuation τ sig (Elt Ideal)) :
    after (segA (F := Ideal)) V (main_v3 : DevRef τ sig)
      = qOf (V (main_arg0 : DevRef τ sig)) (V (main_arg1 : DevRef τ sig)) (V (main_arg2 : DevRef τ sig)) := by
  after_results_simp <;> rfl

/-- Its row means. -/
theorem segA_out_v7 (V : Valuation τ sig (Elt Ideal)) :
    after (segA (F := Ideal)) V (main_v7 : DevRef τ sig)
      = meanOf (qOf (V (main_arg0 : DevRef τ sig)) (V (main_arg1 : DevRef τ sig)) (V (main_arg2 : DevRef τ sig))) := by
  after_results_simp <;> rfl

/-- The integer zero the variance's divisor subtracts. -/
theorem segA_out_c (V : Valuation τ sig (Elt Ideal)) :
    after (segA (F := Ideal)) V (main_c : DevRef τ sig) = constantI S_ 32 0#32 := by
  after_results_simp <;> rfl

/-- The row variances of the array in the projection's buffer, when the integer buffer holds zero. -/
theorem segB_out_v8 (V : Valuation τ sig (Elt Ideal)) (hc : V (main_c : DevRef τ sig) = constantI S_ 32 0#32) :
    after (segB (F := Ideal)) V (main_v8 : DevRef τ sig) = varOf (V (main_v3 : DevRef τ sig)) := by
  after_results_simp
  rw [hc]
  rfl

/-- The normalised rows. -/
theorem segC_out_v15 (V : Valuation τ sig (Elt Ideal)) :
    after (segC (F := Ideal)) V (main_v15 : DevRef τ sig)
      = normFrom (V (main_v3 : DevRef τ sig)) (V (main_v7 : DevRef τ sig)) (V (main_v8 : DevRef τ sig)) := by
  after_results_simp <;> rfl

/-- The first dense layer on them. -/
theorem segC_out_v23 (V : Valuation τ sig (Elt Ideal)) :
    after (segC (F := Ideal)) V (main_v23 : DevRef τ sig)
      = layer0Of (normFrom (V (main_v3 : DevRef τ sig)) (V (main_v7 : DevRef τ sig)) (V (main_v8 : DevRef τ sig)))
          (V (main_arg3 : DevRef τ sig)) (V (main_arg4 : DevRef τ sig)) := by
  after_results_simp <;> rfl

/-- The gate, then the second dense layer. -/
theorem segD_out_v32 (V : Valuation τ sig (Elt Ideal)) :
    after (segD (F := Ideal)) V (main_v32 : DevRef τ sig)
      = layer1Of (siluOf (V (main_v23 : DevRef τ sig))) (V (main_arg3 : DevRef τ sig)) (V (main_arg4 : DevRef τ sig)) := by
  after_results_simp <;> rfl

/-- The gate, then the third dense layer. -/
theorem segE_out_v41 (V : Valuation τ sig (Elt Ideal)) :
    after (segE (F := Ideal)) V (main_v41 : DevRef τ sig)
      = layer2Of (siluOf (V (main_v32 : DevRef τ sig))) (V (main_arg3 : DevRef τ sig)) (V (main_arg4 : DevRef τ sig)) := by
  after_results_simp <;> rfl

/-- The gate, the fourth dense layer, the difference of the normalised rows with themselves added, and the
    output layer. -/
theorem segF_out_v56 (V : Valuation τ sig (Elt Ideal)) :
    after (segF (F := Ideal)) V (main_v56 : DevRef τ sig)
      = denseOf (addf (layer3Of (siluOf (V (main_v41 : DevRef τ sig))) (V (main_arg3 : DevRef τ sig)) (V (main_arg4 : DevRef τ sig)))
            (subf (V (main_v15 : DevRef τ sig)) (V (main_v15 : DevRef τ sig))))
          (V (main_arg5 : DevRef τ sig)) (V (main_arg6 : DevRef τ sig)) := by
  after_results_simp <;> rfl

/-! ## The chain -/

/-- The result buffer after the whole line is the staged term of the seven arguments. -/
theorem out_eq (V : Valuation τ sig (Elt Ideal)) :
    after (ops (F := Ideal)) V (main_v56 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops]
  rw [segF_out_v56]
  rw [segE_out_v41, segE_arg3, segE_arg4, segE_v15, segE_arg5, segE_arg6]
  rw [segD_out_v32, segD_arg3, segD_arg4, segD_v15, segD_arg5, segD_arg6]
  rw [segC_out_v23, segC_out_v15, segC_arg3, segC_arg4, segC_arg5, segC_arg6]
  rw [segB_out_v8 (after segA V) (segA_out_c V), segB_v3, segB_v7, segB_arg3, segB_arg4, segB_arg5, segB_arg6]
  rw [segA_out_v3, segA_out_v7, segA_arg3, segA_arg4, segA_arg5, segA_arg6]
  rw [normFrom_eq]
  rfl

/-- No operation writes argument 0. -/
theorem arg0_eq (V : Valuation τ sig (Elt Ideal)) :
    after (ops (F := Ideal)) V (main_arg0 : DevRef τ sig) = V (main_arg0 : DevRef τ sig) := by
  rw [after_ops, segF_arg0, segE_arg0, segD_arg0, segC_arg0, segB_arg0, segA_arg0]

/-- No operation writes argument 1. -/
theorem arg1_eq (V : Valuation τ sig (Elt Ideal)) :
    after (ops (F := Ideal)) V (main_arg1 : DevRef τ sig) = V (main_arg1 : DevRef τ sig) := by
  rw [after_ops, segF_arg1, segE_arg1, segD_arg1, segC_arg1, segB_arg1, segA_arg1]

/-- No operation writes argument 2. -/
theorem arg2_eq (V : Valuation τ sig (Elt Ideal)) :
    after (ops (F := Ideal)) V (main_arg2 : DevRef τ sig) = V (main_arg2 : DevRef τ sig) := by
  rw [after_ops, segF_arg2, segE_arg2, segD_arg2, segC_arg2, segB_arg2, segA_arg2]

/-- No operation writes argument 3. -/
theorem arg3_eq (V : Valuation τ sig (Elt Ideal)) :
    after (ops (F := Ideal)) V (main_arg3 : DevRef τ sig) = V (main_arg3 : DevRef τ sig) := by
  rw [after_ops, segF_arg3, segE_arg3, segD_arg3, segC_arg3, segB_arg3, segA_arg3]

/-- No operation writes argument 4. -/
theorem arg4_eq (V : Valuation τ sig (Elt Ideal)) :
    after (ops (F := Ideal)) V (main_arg4 : DevRef τ sig) = V (main_arg4 : DevRef τ sig) := by
  rw [after_ops, segF_arg4, segE_arg4, segD_arg4, segC_arg4, segB_arg4, segA_arg4]

/-- No operation writes argument 5. -/
theorem arg5_eq (V : Valuation τ sig (Elt Ideal)) :
    after (ops (F := Ideal)) V (main_arg5 : DevRef τ sig) = V (main_arg5 : DevRef τ sig) := by
  rw [after_ops, segF_arg5, segE_arg5, segD_arg5, segC_arg5, segB_arg5, segA_arg5]

/-- No operation writes argument 6. -/
theorem arg6_eq (V : Valuation τ sig (Elt Ideal)) :
    after (ops (F := Ideal)) V (main_arg6 : DevRef τ sig) = V (main_arg6 : DevRef τ sig) := by
  rw [after_ops, segF_arg6, segE_arg6, segD_arg6, segC_arg6, segB_arg6, segA_arg6]

/-- At the ideal values, from any memory with zero counters: every weakly fair execution of the program
    terminates with the result buffer at the staged term of the arguments' launch contents, and the seven
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
        = refTerm (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v56).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RefRun

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.RefRead.lean ====
/-
  The array operations of the reference program read at one entry.

  Each lemma takes arrays of the program's literal shapes and says what one operation returns at
  an index (b, s, e): a contraction over the last axis against a matrix is the sum over k of
  products; a sum over the last axis started from a value is that value plus the sum; the
  broadcasts read the operand at the coordinates they keep; a slab of a stack re-laid as a matrix
  (or a row of a matrix re-laid as a vector) reads the stack at the slab's index.
-/
import proofs.«108835_j47493748359435_2_alg».proof.Proof.RefTerm
import proofs.«108835_j47493748359435_2_alg».proof.Proof.LibHostLayout
import proofs.«108835_j47493748359435_2_alg».proof.Proof.LibLeadUnit
import Idealize.ShloMosaic.PureOps.Ideal.Laws
import Idealize.ShloMosaic.Lib.Pipeline.Value
import Idealize.ShloMosaic.Lib.ValueIdx

noncomputable section

open scoped BigOperators

namespace Cert.ReferenceIdeal.RefRead

open Idealize.ShloMosaic Idealize.ShloMosaic.ValueIdx
open Cert.ReferenceIdeal Cert.ReferenceIdeal.Facts₀ Cert.ReferenceIdeal.Facts

variable [Cert.ReferenceIdeal.Facts]

/-- The contraction's index shape has one axis … -/
theorem contr_rank : (dot_S4x4096x1024_S1024x1024_S4x4096x1024_2_0_01_1_n_n).contr.rank = 1 := rfl

/-- … of extent 1024. -/
theorem contr_size :
    (dot_S4x4096x1024_S1024x1024_S4x4096x1024_2_0_01_1_n_n).contr.size ⟨0, by rw [contr_rank]; exact Nat.one_pos⟩ = 1024 := rfl

/-- h · W at (b, s, e) is Σ_k h (b, s, k) · W (k, e). -/
theorem dot_apply (l : FVec Ideal S4x4096x1024 .f32) (r : FVec Ideal S1024x1024 .f32) (b : Fin 4) (s : Fin 4096) (e : Fin 1024) :
    Host.dotGeneral dot_S4x4096x1024_S1024x1024_S4x4096x1024_2_0_01_1_n_n none l r (ix3 b s e)
      = ∑ k : Fin 1024, l (ix3 b s k) * r (ix2 k e) := by
  simp only [Host.dotGeneral]
  rw [Ideal.dotGeneral_apply,
    ← Equiv.sum_comp (contrEquiv1 dot_S4x4096x1024_S1024x1024_S4x4096x1024_2_0_01_1_n_n 1024 contr_rank contr_size).symm]
  refine Finset.sum_congr rfl fun k _ => ?_
  have hk := contrEquiv1_symm_val dot_S4x4096x1024_S1024x1024_S4x4096x1024_2_0_01_1_n_n 1024 contr_rank contr_size k
  congr 1
  · refine congrArg l (funext fun a => Fin.ext ?_)
    match a with
    | ⟨0, _⟩ => rfl
    | ⟨1, _⟩ => rfl
    | ⟨2, _⟩ =>
      exact ((dot_S4x4096x1024_S1024x1024_S4x4096x1024_2_0_01_1_n_n).lhsIdx_val_of_single (cl := 2) rfl _ _).trans hk
  · refine congrArg r (funext fun a => Fin.ext ?_)
    match a with
    | ⟨0, _⟩ =>
      exact ((dot_S4x4096x1024_S1024x1024_S4x4096x1024_2_0_01_1_n_n).rhsIdx_val_of_single (cr := 0) rfl _ _).trans hk
    | ⟨1, _⟩ => rfl

/-- A bias row spread over every row reads, at (b, s, e), its entry e. -/
theorem bias_apply (v : FVec Ideal S1024 .f32) (b : Fin 4) (s : Fin 4096) (e : Fin 1024) :
    RefTerm.biasOf v (ix3 b s e) = v (ix1 e) := by
  unfold RefTerm.biasOf
  refine (broadcastInDim_apply _ bcast_S1x1x1024_S4x4096x1024_0_1_2 _ (ix3 b s e) (ix3 (0 : Fin 1) (0 : Fin 1) e) fun a => ?_).trans
    (broadcastInDim_apply _ bcast_S1024_S1x1x1024_2 v (ix3 (0 : Fin 1) (0 : Fin 1) e) (ix1 e) fun a => ?_)
  · match a with
    | ⟨0, _⟩ => rfl
    | ⟨1, _⟩ => rfl
    | ⟨2, _⟩ => rfl
  · match a with
    | ⟨0, _⟩ => rfl

/-- A dense layer on every row, read at (b, s, e). -/
theorem dense_apply (h : FVec Ideal S4x4096x1024 .f32) (w : FVec Ideal S1024x1024 .f32) (v : FVec Ideal S1024 .f32)
    (b : Fin 4) (s : Fin 4096) (e : Fin 1024) :
    RefTerm.denseOf h w v (ix3 b s e) = (∑ k : Fin 1024, h (ix3 b s k) * w (ix2 k e)) + v (ix1 e) := by
  unfold RefTerm.denseOf
  rw [addf_apply, dot_apply, bias_apply]

/-- A sum over the last axis started from `init`, read at (b, s). -/
theorem reduce_apply (q : FVec Ideal S4x4096x1024 .f32) (init : FVec Ideal S_ .f32) (b : Fin 4) (s : Fin 4096) :
    Host.reduceAdd q init reducesTo_S4x4096x1024_S4x4096_d2 h_S_ (ix2 b s) = init ix0 + ∑ e : Fin 1024, q (ix3 b s e) := by
  have hR : S4x4096x1024.Reduces [2] S4x4096 := by decide
  unfold Host.reduceAdd
  rw [Ideal.hostReduceAdd_def, Ideal.hostReduceAdd_single reducesTo_S4x4096x1024_S4x4096_d2 hR]
  congr 1
  · exact congrArg init (eq_ix0 _)
  · refine Finset.sum_congr rfl fun k _ => congrArg q (funext fun a => Fin.ext ?_)
    match a with
    | ⟨0, _⟩ => rfl
    | ⟨1, _⟩ => rfl
    | ⟨2, _⟩ => rfl

/-- A [4, 4096] array given a last axis of length one reads, at (b, s, z), its entry (b, s). -/
theorem keep_apply (v : FVec Ideal S4x4096 .f32) (b : Fin 4) (s : Fin 4096) (z : Fin 1) :
    broadcastInDim S4x4096x1 ![0, 1] bcast_S4x4096_S4x4096x1_0_1 v (ix3 b s z) = v (ix2 b s) := by
  refine broadcastInDim_apply _ bcast_S4x4096_S4x4096x1_0_1 v (ix3 b s z) (ix2 b s) fun a => ?_
  match a with
  | ⟨0, _⟩ => rfl
  | ⟨1, _⟩ => rfl

/-- A column [4, 4096, 1] spread along the last axis reads, at (b, s, e), its entry (b, s, 0). -/
theorem col_apply (v : FVec Ideal S4x4096x1 .f32) (b : Fin 4) (s : Fin 4096) (e : Fin 1024) :
    broadcastInDim S4x4096x1024 ![0, 1, 2] bcast_S4x4096x1_S4x4096x1024_0_1_2 v (ix3 b s e) = v (ix3 b s (0 : Fin 1)) := by
  refine broadcastInDim_apply _ bcast_S4x4096x1_S4x4096x1024_0_1_2 v (ix3 b s e) (ix3 b s (0 : Fin 1)) fun a => ?_
  match a with
  | ⟨0, _⟩ => rfl
  | ⟨1, _⟩ => rfl
  | ⟨2, _⟩ => rfl

/-- Table l of the stacked weights, sliced out and re-laid as a matrix, reads at (k, e) the stack at (l, k, e). -/
theorem table_apply (mw : FVec Ideal S4x1024x1024 .f32) (l : Fin 4)
    (hs : S4x1024x1024.Slices ![l.val, 0, 0] S1x1024x1024) (k e : Fin 1024) :
    shapeCast S1024x1024 (extractStridedSlice S1x1024x1024 ![l.val, 0, 0] mw hs) shapeCasts_S1x1024x1024_S1024x1024 (ix2 k e)
      = mw (ix3 l k e) :=
  (Cert.LeadUnit.dropLead_apply _ shapeCasts_S1x1024x1024_S1024x1024 k e).trans
    (Cert.LeadUnit.sliceLead_apply mw l hs (0 : Fin 1) k e)

/-- Row l of the stacked biases, sliced out and re-laid as a vector, reads at e the stack at (l, e). -/
theorem biasRow_apply (mb : FVec Ideal S4x1024 .f32) (l : Fin 4) (hs : S4x1024.Slices ![l.val, 0] S1x1024) (e : Fin 1024) :
    shapeCast S1024 (extractStridedSlice S1x1024 ![l.val, 0] mb hs) shapeCasts_S1x1024_S1024 (ix1 e) = mb (ix2 l e) := by
  refine (shapeCast_apply _ shapeCasts_S1x1024_S1024 (ix1 e) (ix2 (0 : Fin 1) e) ?_).trans
    (extractStridedSlice_apply _ mb hs (ix2 (0 : Fin 1) e) (ix2 l e) fun c => ?_)
  · rw [Shape.rowMajor_val_two, Shape.rowMajor_val_one]
    show (0 : ℕ) * 1024 + e.val = e.val
    rw [Nat.zero_mul, Nat.zero_add]
  · match c with
    | ⟨0, _⟩ => rfl
    | ⟨1, _⟩ => show e.val = 0 + e.val; rw [Nat.zero_add]

end Cert.ReferenceIdeal.RefRead

end
-- ==== Proof.RefRows.lean ====
/-
  The reference program's result, one row at a time.

  Every stage of the composed term acts on each row (b, s) of its argument separately: the
  projection, the four layers and the output layer are dense layers on the row; the mean, the
  variance and the normalisation are the row's; the gate acts entry by entry. Read row by row the
  whole term is the row network with the two-pass variance, applied to row (b, s) of x.
-/
import proofs.«108835_j47493748359435_2_alg».proof.Proof.RefRead
import proofs.«108835_j47493748359435_2_alg».proof.Proof.LibRowNet

noncomputable section

open scoped BigOperators

namespace Cert.ReferenceIdeal.RefRows

open Idealize.ShloMosaic Idealize.ShloMosaic.ValueIdx
open Cert.ReferenceIdeal Cert.ReferenceIdeal.Facts₀ Cert.ReferenceIdeal.Facts
open Cert.ReferenceIdeal.RefTerm Cert.ReferenceIdeal.RefRead Cert.RowNet

variable [Cert.ReferenceIdeal.Facts]

/-! ## The constants -/

/-- The word 0x3F800000 denotes 1. -/
theorem one_word : Ideal.ofBits .f32 0x3F800000#32 = 1 := by
  simp [Ideal.ofBits, Ideal.ieee, -EReal.coe_mul]; norm_num

/-- The word 0x44800000 denotes 1024. -/
theorem cWord_val : cWord = ((1024 : ℝ) : EReal) := by
  simp [Ideal.ofBits, Ideal.ieee, -EReal.coe_mul]; norm_num

/-- 1024 is positive. -/
theorem cWord_pos : (0 : EReal) < cWord := by
  rw [cWord_val]; exact_mod_cast (by norm_num : (0 : ℝ) < 1024)

/-- The divisor of the variance, 1024 minus the converted integer zero, is 1024. -/
theorem divisor_apply (j : S_.Idx) : divisorOf j = cWord := by
  show cWord - (((0#32 : BitVec 32).toInt : ℝ) : EReal) = cWord
  have h0 : (0#32 : BitVec 32).toInt = 0 := by decide
  rw [h0, Int.cast_zero, EReal.coe_zero, sub_zero]

/-- The zero constant reads 0. -/
theorem zero_apply (j : S_.Idx) : constant (F := Ideal) S_ .f32 0x00000000#32 j = 0 := Ideal.ofBits_zero_f32

/-! ## The host operations entry by entry (definitional at the ideal instance) -/

theorem hdivf_apply {t : Shape} (a c : FVec Ideal t .f32) (i : t.Idx) : Host.divf a c i = Ideal.div (a i) (c i) := rfl

theorem hrsqrt_apply {t : Shape} (a : FVec Ideal t .f32) (i : t.Idx) : Host.rsqrt a i = Ideal.rsqrt (a i) := rfl

theorem hexp_apply {t : Shape} (a : FVec Ideal t .f32) (i : t.Idx) : Host.exp a i = Ideal.exp (a i) := rfl

theorem hnegf_apply {t : Shape} (a : FVec Ideal t .f32) (i : t.Idx) : Host.negf a i = -(a i) := rfl

/-! ## The stages, read at one entry -/

/-- The kept row sum at (b, s, z) is the sum of row (b, s). -/
theorem rowSum_apply (q : FVec Ideal S4x4096x1024 .f32) (b : Fin 4) (s : Fin 4096) (z : Fin 1) :
    rowSumOf q (ix3 b s z) = ∑ e : Fin 1024, q (ix3 b s e) := by
  unfold rowSumOf
  rw [keep_apply, reduce_apply, zero_apply, zero_add]

/-- The mean at (b, s, z) is the mean of row (b, s). -/
theorem mean_apply (q : FVec Ideal S4x4096x1024 .f32) (b : Fin 4) (s : Fin 4096) (z : Fin 1) :
    meanOf q (ix3 b s z) = mean cWord (row3 q b s) := by
  unfold meanOf
  rw [hdivf_apply, rowSum_apply, Cert.HostLayout.scalar_apply]
  rfl

/-- The centred array at (b, s, e) is the row's entry minus the row's mean. -/
theorem centred_apply (q : FVec Ideal S4x4096x1024 .f32) (b : Fin 4) (s : Fin 4096) (e : Fin 1024) :
    centredOf q (ix3 b s e) = row3 q b s e - mean cWord (row3 q b s) := by
  unfold centredOf
  rw [subf_apply, col_apply, mean_apply]
  rfl

/-- The comparison 1024 − 0 > 0 holds. -/
theorem guard_true : FloatOps.cmpf (F := Ideal) (φ := .f32) .ogt cWord 0 = 1#1 := by
  rw [Ideal.cmpf_def]
  show BitVec.ofBool (decide ((0 : EReal) < cWord)) = 1#1
  rw [decide_eq_true cWord_pos]
  rfl

/-- The variance at (b, s, z) is the two-pass variance of row (b, s). -/
theorem var_apply (q : FVec Ideal S4x4096x1024 .f32) (b : Fin 4) (s : Fin 4096) (z : Fin 1) :
    varOf q (ix3 b s z)
      = Ideal.div (∑ i : Fin 1024, (row3 q b s i - mean cWord (row3 q b s)) * (row3 q b s i - mean cWord (row3 q b s))) cWord := by
  unfold varOf
  rw [select_apply, Cert.HostLayout.scalar_apply, cmpf_apply, divisor_apply, zero_apply, guard_true, select_one, hdivf_apply,
    keep_apply, reduce_apply, zero_apply, zero_add, Cert.HostLayout.scalar_apply, divisor_apply]
  refine congrArg (fun t => Ideal.div t cWord) (Finset.sum_congr rfl fun i _ => ?_)
  rw [mulf_apply, centred_apply]

/-- The normalised array at (b, s, e) is the two-pass normalisation of row (b, s) at e. -/
theorem norm_apply (q : FVec Ideal S4x4096x1024 .f32) (b : Fin 4) (s : Fin 4096) (e : Fin 1024) :
    normOf q (ix3 b s e) = normTwoPass cWord eWord (row3 q b s) e := by
  unfold normOf
  rw [mulf_apply, centred_apply, col_apply, hrsqrt_apply, addf_apply, var_apply, Cert.HostLayout.scalar_apply]
  rfl

/-- The gate acts entry by entry. -/
theorem silu_apply (h : FVec Ideal S4x4096x1024 .f32) (i : S4x4096x1024.Idx) : siluOf h i = silu (h i) := by
  unfold siluOf
  rw [mulf_apply, hdivf_apply, addf_apply, Cert.HostLayout.scalar_apply, hexp_apply, hnegf_apply]
  show h i * Ideal.div (Ideal.ofBits .f32 0x3F800000#32) (Ideal.ofBits .f32 0x3F800000#32 + Ideal.exp (-(h i))) = silu (h i)
  rw [one_word]
  rfl

/-- Layer l at (b, s, e) is the dense layer over table l and bias row l on row (b, s). -/
theorem layer_apply (h : FVec Ideal S4x4096x1024 .f32) (mw : FVec Ideal S4x1024x1024 .f32) (mb : FVec Ideal S4x1024 .f32)
    (l : Fin 4) (hW : S4x1024x1024.Slices ![l.val, 0, 0] S1x1024x1024) (hB : S4x1024.Slices ![l.val, 0] S1x1024)
    (b : Fin 4) (s : Fin 4096) (e : Fin 1024) :
    denseOf h
        (shapeCast S1024x1024 (extractStridedSlice S1x1024x1024 ![l.val, 0, 0] mw hW) shapeCasts_S1x1024x1024_S1024x1024)
        (shapeCast S1024 (extractStridedSlice S1x1024 ![l.val, 0] mb hB) shapeCasts_S1x1024_S1024) (ix3 b s e)
      = dense (mat3 mw l) (mat2 mb l) (row3 h b s) e := by
  rw [dense_apply, biasRow_apply]
  refine congrArg (· + mb (ix2 l e)) (Finset.sum_congr rfl fun k _ => ?_)
  rw [table_apply]
  rfl

/-! ## The stages, row by row -/

theorem q_row (x : FVec Ideal S4x4096x1024 .f32) (wq : FVec Ideal S1024x1024 .f32) (bq : FVec Ideal S1024 .f32)
    (b : Fin 4) (s : Fin 4096) : row3 (qOf x wq bq) b s = dense (mat2 wq) (vec1 bq) (row3 x b s) :=
  funext fun e => dense_apply x wq bq b s e

theorem norm_row (q : FVec Ideal S4x4096x1024 .f32) (b : Fin 4) (s : Fin 4096) :
    row3 (normOf q) b s = normTwoPass cWord eWord (row3 q b s) :=
  funext fun e => norm_apply q b s e

theorem silu_row (h : FVec Ideal S4x4096x1024 .f32) (b : Fin 4) (s : Fin 4096) :
    row3 (siluOf h) b s = fun j => silu (row3 h b s j) :=
  funext fun e => silu_apply h (ix3 b s e)

theorem layer0_row (h : FVec Ideal S4x4096x1024 .f32) (mw : FVec Ideal S4x1024x1024 .f32) (mb : FVec Ideal S4x1024 .f32)
    (b : Fin 4) (s : Fin 4096) : row3 (layer0Of h mw mb) b s = dense (mat3 mw 0) (mat2 mb 0) (row3 h b s) :=
  funext fun e => layer_apply h mw mb 0 slices_S4x1024x1024_S1x1024x1024_0_0_0 slices_S4x1024_S1x1024_0_0 b s e

theorem layer1_row (h : FVec Ideal S4x4096x1024 .f32) (mw : FVec Ideal S4x1024x1024 .f32) (mb : FVec Ideal S4x1024 .f32)
    (b : Fin 4) (s : Fin 4096) : row3 (layer1Of h mw mb) b s = dense (mat3 mw 1) (mat2 mb 1) (row3 h b s) :=
  funext fun e => layer_apply h mw mb 1 slices_S4x1024x1024_S1x1024x1024_1_0_0 slices_S4x1024_S1x1024_1_0 b s e

theorem layer2_row (h : FVec Ideal S4x4096x1024 .f32) (mw : FVec Ideal S4x1024x1024 .f32) (mb : FVec Ideal S4x1024 .f32)
    (b : Fin 4) (s : Fin 4096) : row3 (layer2Of h mw mb) b s = dense (mat3 mw 2) (mat2 mb 2) (row3 h b s) :=
  funext fun e => layer_apply h mw mb 2 slices_S4x1024x1024_S1x1024x1024_2_0_0 slices_S4x1024_S1x1024_2_0 b s e

theorem layer3_row (h : FVec Ideal S4x4096x1024 .f32) (mw : FVec Ideal S4x1024x1024 .f32) (mb : FVec Ideal S4x1024 .f32)
    (b : Fin 4) (s : Fin 4096) : row3 (layer3Of h mw mb) b s = dense (mat3 mw 3) (mat2 mb 3) (row3 h b s) :=
  funext fun e => layer_apply h mw mb 3 slices_S4x1024x1024_S1x1024x1024_3_0_0 slices_S4x1024_S1x1024_3_0 b s e

/-- The four layers on row (b, s). -/
theorem mlp_row (qn : FVec Ideal S4x4096x1024 .f32) (mw : FVec Ideal S4x1024x1024 .f32) (mb : FVec Ideal S4x1024 .f32)
    (b : Fin 4) (s : Fin 4096) : row3 (mlpOf qn mw mb) b s = mlp (mat3 mw) (mat2 mb) (row3 qn b s) := by
  unfold mlpOf mlp
  rw [layer3_row, silu_row, layer2_row, silu_row, layer1_row, silu_row, layer0_row]

/-- The reference's result is, row by row, the row network with the two-pass variance. -/
theorem refTerm_eq (x : FVec Ideal S4x4096x1024 .f32) (wq : FVec Ideal S1024x1024 .f32) (bq : FVec Ideal S1024 .f32)
    (mw : FVec Ideal S4x1024x1024 .f32) (mb : FVec Ideal S4x1024 .f32) (wo : FVec Ideal S1024x1024 .f32)
    (bo : FVec Ideal S1024 .f32) :
    refTerm x wq bq mw mb wo bo
      = rowwise (netTwoPass cWord eWord (mat2 wq) (vec1 bq) (mat3 mw) (mat2 mb) (mat2 wo) (vec1 bo)) x := by
  funext i
  obtain ⟨b, s, e, rfl⟩ : ∃ (b : Fin 4) (s : Fin 4096) (e : Fin 1024), i = ix3 b s e := ⟨i 0, i 1, i 2, eq_ix3 i⟩
  rw [rowwise_apply]
  unfold refTerm netTwoPass
  rw [dense_apply]
  refine congrArg (· + bo (ix1 e)) (Finset.sum_congr rfl fun k _ => congrArg (· * wo (ix2 k e)) ?_)
  rw [addf_apply, subf_apply]
  show row3 (mlpOf (normOf (qOf x wq bq)) mw mb) b s k
      + (row3 (normOf (qOf x wq bq)) b s k - row3 (normOf (qOf x wq bq)) b s k) = _
  rw [mlp_row, norm_row, q_row]

end Cert.ReferenceIdeal.RefRows

end
-- ==== Proof.LibRealEntries.lean ====
/-
  Entries that are real numbers, on the extended reals.

  An extended real is REAL when it is neither +∞ nor −∞. Sums, products and maxima of real entries are real, a finite
  sum of real entries is real, and so is the greatest entry of a nonempty finite row of real entries (the fold of `max`
  from −∞). The one law of subtraction used with it: taking away `m + L` is taking away `m` and then `L`, as soon as `m`
  is real, whatever `L` and the minuend are — at an infinite `m` the two sides differ.
-/
import Idealize.ShloMosaic.PureOps.Ideal
import Mathlib.Data.Finset.Fold

noncomputable section

open scoped BigOperators

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊥) (h2 : x ≠ ⊤) : IsReal x := by
  induction x using EReal.rec with
  | bot => exact absurd rfl h1
  | coe r => exact ⟨r, rfl⟩
  | top => exact absurd rfl h2

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) : IsReal (if p then x else y) := by
  split <;> assumption

/-- A finite sum of real entries is real. -/
theorem isReal_sum {ι : Type} (s : Finset ι) (f : ι → EReal) (h : ∀ i ∈ s, IsReal (f i)) : IsReal (∑ i ∈ s, f i) :=
  Finset.sum_induction f IsReal (fun _ _ ha hb => ha.add hb) isReal_zero h

/-- The greatest entry of a nonempty finite row of real entries, folded from −∞, is real. -/
theorem isReal_fold_max {ι : Type} (s : Finset ι) (f : ι → EReal) (hne : s.Nonempty) (h : ∀ i ∈ s, IsReal (f i)) :
    IsReal (s.fold max (⊥ : EReal) f) := by
  refine isReal_of_ne ?_ ?_
  · obtain ⟨i, hi⟩ := hne
    intro hb
    have hle : f i ≤ s.fold max (⊥ : EReal) f := (Finset.le_fold_max _).mpr (Or.inr ⟨i, hi, le_rfl⟩)
    rw [hb] at hle
    exact (h i hi).ne_bot (le_bot_iff.mp hle)
  · have hlt : s.fold max (⊥ : EReal) f < ⊤ :=
      (Finset.fold_max_lt _).mpr ⟨bot_lt_top, fun i hi => lt_top_iff_ne_top.mpr (h i hi).ne_top⟩
    exact hlt.ne

/-- Taking away `m + L` is taking away `m`, then `L`, when `m` is real. -/
theorem sub_add_of_isReal {m : EReal} (hm : IsReal m) (x L : EReal) : x - (m + L) = x - m - L := by
  obtain ⟨r, rfl⟩ := hm
  rw [sub_eq_add_neg, EReal.neg_add (Or.inl (EReal.coe_ne_bot r)) (Or.inl (EReal.coe_ne_top r)),
    sub_eq_add_neg (-(r : EReal)) L, ← add_assoc, ← sub_eq_add_neg, ← sub_eq_add_neg]

end Cert.LibRealEntries

end
-- ==== Proof.LibRowNetLaw.lean ====
/-
  The one-pass and the two-pass spelling of a row's variance agree on rows of real numbers.

  Write the row as real numbers r 0 … r (D−1), let c = D be the row length and μ = (Σ r) / D. Expanding the square,
    Σ (r i − μ)² / D = Σ r i² / D − 2 μ (Σ r i) / D + μ² = Σ r i² / D − μ²,
  because Σ 1 = D and Σ r i = D μ. The left side is a sum of squares divided by a positive number, hence ≥ 0, so
  taking the maximum with 0 of the right side changes nothing: the two normalisations feed the SAME number to the
  reciprocal square root. That number plus a positive e is a positive real, so the normalised row has real entries;
  for a real t, t − t = 0, and adding 0 changes nothing. The later layers are the same function of equal rows.
  Over any sizes. (Imports LibRowNet and LibRealEntries beside it.)
-/
import proofs.«108835_j47493748359435_2_alg».proof.Proof.LibRowNet
import proofs.«108835_j47493748359435_2_alg».proof.Proof.LibRealEntries
import Mathlib.Tactic

noncomputable section

open scoped BigOperators

namespace Cert.RowNet

open Idealize.ShloMosaic Cert.LibRealEntries

/-- The coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dense layer of real tables on a real row has real entries. -/
theorem dense_isReal {K N : ℕ} {W : Fin K → Fin N → EReal} {b : Fin N → EReal} {v : Fin K → EReal}
    (hW : ∀ k j, IsReal (W k j)) (hb : ∀ j, IsReal (b j)) (hv : ∀ k, IsReal (v k)) :
    ∀ j, IsReal (dense W b v j) := by
  intro j
  exact (isReal_sum _ _ fun k _ => (hv k).mul (hW k j)).add (hb j)

/-- The mean of a real row, the divisor a nonzero real. -/
theorem mean_coe {N : ℕ} {d : ℝ} (hd : d ≠ 0) (r : Fin N → ℝ) :
    mean (d : EReal) (fun j => (r j : EReal)) = (((∑ j, r j) * (1 / d) : ℝ) : EReal) := by
  rw [mean, Ideal.div_coe hd, ← coe_sum, ← EReal.coe_mul]

/-- The variance identity on the reals: with μ = (Σ r) / D,  Σ (r i − μ)² / D = Σ r i² / D − μ². -/
theorem var_identity {D : ℕ} (hD : 0 < D) (r : Fin D → ℝ) :
    (∑ i, (r i - (∑ j, r j) * (1 / (D : ℝ))) * (r i - (∑ j, r j) * (1 / (D : ℝ)))) * (1 / (D : ℝ))
      = (∑ i, r i * r i) * (1 / (D : ℝ)) - ((∑ j, r j) * (1 / (D : ℝ))) * ((∑ j, r j) * (1 / (D : ℝ))) := by
  have hD' : (D : ℝ) ≠ 0 := by exact_mod_cast hD.ne'
  set μ : ℝ := (∑ j, r j) * (1 / (D : ℝ)) with hμ
  have hS : ∑ j, r j = (D : ℝ) * μ := by rw [hμ]; field_simp
  have hexp : ∀ i, (r i - μ) * (r i - μ) = r i * r i - 2 * μ * r i + μ * μ := fun i => by ring
  simp_rw [hexp, Finset.sum_add_distrib, Finset.sum_sub_distrib, ← Finset.mul_sum, Finset.sum_const,
    Finset.card_univ, Fintype.card_fin, nsmul_eq_mul, hS]
  field_simp
  ring

/-- The two-pass variance of a real row is ≥ 0. -/
theorem var_nonneg {D : ℕ} (r : Fin D → ℝ) (μ : ℝ) :
    0 ≤ (∑ i, (r i - μ) * (r i - μ)) * (1 / (D : ℝ)) :=
  mul_nonneg (Finset.sum_nonneg fun i _ => mul_self_nonneg _) (by positivity)

/-- The reciprocal square root of a positive real is a real. -/
theorem rsqrt_isReal {x : ℝ} (hx : 0 < x) : IsReal (Ideal.rsqrt (x : EReal)) := by
  rw [Ideal.rsqrt_coe, if_neg (not_lt.mpr hx.le), if_neg hx.ne']
  exact isReal_coe _

section norm

variable {D : ℕ} (hD : 0 < D) {ε : ℝ} (hε : 0 < ε) (r : Fin D → ℝ)

include hD in
/-- The argument of the reciprocal square root in the two-pass spelling, as a real number. -/
theorem twoPass_arg :
    Ideal.div (∑ i : Fin D, ((r i : EReal) - mean ((D : ℝ) : EReal) fun j => (r j : EReal))
        * ((r i : EReal) - mean ((D : ℝ) : EReal) fun j => (r j : EReal))) ((D : ℝ) : EReal) + (ε : EReal)
      = (((∑ i, (r i - (∑ j, r j) * (1 / (D : ℝ))) * (r i - (∑ j, r j) * (1 / (D : ℝ)))) * (1 / (D : ℝ)) + ε : ℝ) : EReal) := by
  have hD' : (D : ℝ) ≠ 0 := by exact_mod_cast hD.ne'
  rw [mean_coe hD', Ideal.div_coe hD']
  simp_rw [← EReal.coe_sub, ← EReal.coe_mul]
  rw [← coe_sum, ← EReal.coe_mul, ← EReal.coe_add]

include hD in
/-- The argument of the reciprocal square root in the one-pass spelling is the same real number. -/
theorem onePass_arg :
    max (Ideal.div (∑ i : Fin D, (r i : EReal) * (r i : EReal)) ((D : ℝ) : EReal)
        - mean ((D : ℝ) : EReal) (fun j => (r j : EReal)) * mean ((D : ℝ) : EReal) (fun j => (r j : EReal))) 0 + (ε : EReal)
      = (((∑ i, (r i - (∑ j, r j) * (1 / (D : ℝ))) * (r i - (∑ j, r j) * (1 / (D : ℝ)))) * (1 / (D : ℝ)) + ε : ℝ) : EReal) := by
  have hD' : (D : ℝ) ≠ 0 := by exact_mod_cast hD.ne'
  rw [mean_coe hD', Ideal.div_coe hD']
  simp_rw [← EReal.coe_mul]
  rw [← coe_sum, ← EReal.coe_mul, ← EReal.coe_sub, ← var_identity hD r,
    max_eq_left (by rw [← EReal.coe_zero, EReal.coe_le_coe_iff]; exact var_nonneg r _), ← EReal.coe_add]

include hD in
/-- The two normalisations agree on a real row whose length is the divisor. -/
theorem normOnePass_eq_normTwoPass :
    normOnePass ((D : ℝ) : EReal) (ε : EReal) (fun j => (r j : EReal))
      = normTwoPass ((D : ℝ) : EReal) (ε : EReal) (fun j => (r j : EReal)) := by
  funext j
  simp only [normOnePass, normTwoPass]
  rw [onePass_arg hD r, twoPass_arg hD r]

include hD hε in
/-- The normalised row has real entries. -/
theorem normTwoPass_isReal (j : Fin D) :
    IsReal (normTwoPass ((D : ℝ) : EReal) (ε : EReal) (fun j => (r j : EReal)) j) := by
  have hD' : (D : ℝ) ≠ 0 := by exact_mod_cast hD.ne'
  simp only [normTwoPass]
  rw [twoPass_arg hD r, mean_coe hD', ← EReal.coe_sub]
  exact (isReal_coe _).mul (rsqrt_isReal (add_pos_of_nonneg_of_pos (var_nonneg r _) hε))

end norm

/-- A real number minus itself is 0 on the extended reals. -/
theorem sub_self_of_isReal {x : EReal} (hx : IsReal x) : x - x = 0 := by
  obtain ⟨t, rfl⟩ := hx
  rw [← EReal.coe_sub, sub_self, EReal.coe_zero]

/-- The two row networks agree as soon as the first dense layer's output is a row of real numbers, the divisor c
    is the row length and e is a positive real. Nothing is asked of the later tables. -/
theorem netOnePass_eq_netTwoPass {K D : ℕ} (hD : 0 < D) {c e : EReal} (hc : c = ((D : ℝ) : EReal))
    (he : ∃ r : ℝ, 0 < r ∧ e = (r : EReal))
    (Wq : Fin K → Fin D → EReal) (bq : Fin D → EReal) (Wm : Fin 4 → Fin D → Fin D → EReal) (bm : Fin 4 → Fin D → EReal)
    (Wo : Fin D → Fin D → EReal) (bo : Fin D → EReal) (v : Fin K → EReal)
    (hq : ∀ j, IsReal (dense Wq bq v j)) :
    netOnePass c e Wq bq Wm bm Wo bo v = netTwoPass c e Wq bq Wm bm Wo bo v := by
  obtain ⟨ε, hε, rfl⟩ := he
  subst hc
  choose r hr using hq
  have hqr : dense Wq bq v = fun j => (r j : EReal) := funext hr
  simp only [netOnePass, netTwoPass]
  rw [hqr, normOnePass_eq_normTwoPass hD r]
  congr 1
  funext j
  rw [sub_self_of_isReal (normTwoPass_isReal hD hε r j), add_zero]

/-! ## The two constants

  The f32 word 0x44800000 has sign 0, exponent field 137 and fraction 0: it is 2²³ · 2^(137 − 127 − 23) = 2¹⁰ = 1024.
  The word 0x3727C5AC has sign 0, exponent field 110 and fraction 2606508: it is (2²³ + 2606508) · 2^(110 − 127 − 23)
  = 10995116 · 2⁻⁴⁰, a positive real (about 10⁻⁵). -/

theorem cWord_eq : cWord = ((1024 : ℝ) : EReal) := by
  simp only [cWord, Ideal.ofBits, Ideal.ieee]
  simp
  rw [← EReal.coe_mul]
  norm_num

theorem eWord_pos : ∃ r : ℝ, 0 < r ∧ eWord = (r : EReal) := by
  simp [eWord, Ideal.ofBits, Ideal.ieee]
  exact ⟨10995116 * (2 ^ 40)⁻¹, by positivity, by rw [EReal.coe_mul]⟩

end Cert.RowNet

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.FiniteInputs.lean ====
/-
  From the precondition to real entries.

  The precondition is the conjunction of seven tests, one per argument array: "every entry x has |x| < +∞", the
  conjunction over all entries taken by one reduction by `and` from the constant 1. That the whole is 1 says each of the
  seven reductions is 1; a reduction by `and` over all axes that is 1 met a 1 at every index; and |x| = max x (−x) below
  +∞ on the extended reals says x is neither +∞ nor −∞, that is, a real number. Read here for the first three arrays.
-/
import proofs.«108835_j47493748359435_2_alg».proof.Pre_finite_inputs
import proofs.«108835_j47493748359435_2_alg».proof.Proof.LibRealEntries
import proofs.«108835_j47493748359435_2_alg».proof.Proof.LibSingletonSoftmax
import Idealize.ShloMosaic.Lib.ReduceAll
import Idealize.ShloMosaic.Lib.ValueIdx

noncomputable section

namespace Cert.FiniteInputs

open Idealize.ShloMosaic Cert.Pre_finite_inputs Cert.LibRealEntries

/-- The shape with no axes has one index. -/
instance : Subsingleton S_.Idx := ⟨fun a b => funext fun d => d.elim0⟩

/-- One test: if the reduction by `and` of "|x i| < +∞" over all of an array is 1, every entry is real. -/
theorem real_of_all {S : Shape} {axes : List (Fin S.rank)} (hb : S_.BroadcastsInDim S (![] : Fin 0 → Fin S.rank))
    (hr : S.ReducesTo axes S_) (hu : 0 < S_.numel) (a : FVec Ideal S .f32)
    (h : Host.reduce IntOp.andi (cmpf .olt (Host.absf a) (broadcastInDim S ![] hb (constant S_ .f32 0x7F800000#32)))
      (constantI S_ 1 1#1) hr hu ValueIdx.ix0 = 1#1) :
    ∀ i, IsReal (a i) := by
  intro i
  have hi := Host.reduce_andi_all _ _ hr hu ValueIdx.ix0 h i
  exact SingletonSoftmax.real_of_abs_lt_top (a i) hi

variable [Cert.Pre_finite_inputs.Facts]

/-- The first three argument arrays have real entries when the precondition holds. -/
theorem real_of_pre (a0 : FVec Ideal S4x4096x1024 .f32) (a1 : FVec Ideal S1024x1024 .f32) (a2 : FVec Ideal S1024 .f32)
    (a3 : FVec Ideal S4x1024x1024 .f32) (a4 : FVec Ideal S4x1024 .f32) (a5 : FVec Ideal S1024x1024 .f32)
    (a6 : FVec Ideal S1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) := by
  have h0 := congrFun h ValueIdx.ix0
  dsimp only [fn, fn_part1] at h0
  have key : ∀ (x y : IVec S_ 1) (i : S_.Idx), andi x y i = IntOp.andi (x i) (y i) := fun _ _ _ => rfl
  rw [key, IntOp.andi_eq_one, key, IntOp.andi_eq_one, key, IntOp.andi_eq_one, key, IntOp.andi_eq_one,
    key, IntOp.andi_eq_one, key, IntOp.andi_eq_one] at h0
  obtain ⟨⟨⟨⟨⟨⟨h3, h7⟩, h12⟩, _⟩, _⟩, _⟩, _⟩ := h0
  exact ⟨real_of_all _ _ _ a0 h3, real_of_all _ _ _ a1 h7, real_of_all _ _ _ a2 h12⟩

end Cert.FiniteInputs

end
-- ==== Proof.lean ====
/-
  The kernel and its reference compute, for every row (b, s) of the input [4, 4096, 1024], one function of
  that row and of the weight tables: a projection, a normalisation of the projected row, a four-layer
  network with x · logistic x between the layers, and an output layer (LibRowNet.lean).

  The kernel (KernelArray.lean) spells the normalisation's variance in one pass, max (Σ q² / 1024 − mean², 0);
  the reference (RefRun.lean, RefRows.lean) spells it in two passes, Σ (q − mean)² / 1024, and adds the term
  qn − qn to the network's output before the last layer. On the extended reals the two agree whenever the
  projected row is a row of real numbers (LibRowNetLaw.lean): then Σ (q − mean)² / 1024 = Σ q² / 1024 − mean² is a
  nonnegative real, the normalised row is real, and a real minus itself is zero. The projected row is real
  because the precondition makes the input, the projection table and its bias real (FiniteInputs.lean); nothing
  is needed of the other tables. Changes of float format and the different tilings are the identity here.

  The three frames: the two kernels' are the frame theorems proved for them module by module; the reference's is
  its run with the result forgotten. The idealisation rewrote nothing, so its claim is trivial.
-/
import proofs.«108835_j47493748359435_2_alg».proof.Defs
import proofs.«108835_j47493748359435_2_alg».proof.Proof.Gen.Kernel
import proofs.«108835_j47493748359435_2_alg».proof.Proof.Gen.Kernel.Frame
import proofs.«108835_j47493748359435_2_alg».proof.Proof.Gen.KernelIdeal
import proofs.«108835_j47493748359435_2_alg».proof.Proof.Gen.KernelIdeal.Frame
import proofs.«108835_j47493748359435_2_alg».proof.Proof.Gen.ReferenceIdeal
import proofs.«108835_j47493748359435_2_alg».proof.Proof.Gen.Pre_finite_inputs
import proofs.«108835_j47493748359435_2_alg».proof.Proof.KernelArray
import proofs.«108835_j47493748359435_2_alg».proof.Proof.RefRun
import proofs.«108835_j47493748359435_2_alg».proof.Proof.RefRows
import proofs.«108835_j47493748359435_2_alg».proof.Proof.LibRowNetLaw
import proofs.«108835_j47493748359435_2_alg».proof.Proof.FiniteInputs

noncomputable section

namespace Cert.Proof

open Idealize.ShloMosaic Idealize.ShloMosaic.ValueIdx Idealize.SL.Sem Cert.RowNet

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with row (b, s) of the result at the row network of row (b, s) of the input: the kernel's
    with the one-pass variance, the reference's with the two-pass one; the two agree on the real rows the
    precondition gives. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6⟩ := hagree c
  rw [Cert.ReferenceIdeal.RefRows.refTerm_eq, h0, h1, h2, h3, h4, h5, h6]
  obtain ⟨r0, r1, r2⟩ := Cert.FiniteInputs.real_of_pre _ _ _ _ _ _ _ (hpre c)
  funext i
  obtain ⟨b, s, e, rfl⟩ : ∃ (b : Fin 4) (s : Fin 4096) (e : Fin 1024), i = ix3 b s e := ⟨i 0, i 1, i 2, eq_ix3 i⟩
  refine (congrFun (netOnePass_eq_netTwoPass (by norm_num) (by rw [cWord_eq]; norm_num) eWord_pos _ _ _ _ _ _ _
    (dense_isReal (fun k j => r1 (ix2 k j)) (fun j => r2 (ix1 j)) (fun k => r0 (ix3 b s k)))) e).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
